-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S3x64x64 : S_.BroadcastsInDim S3x64x64 (![] : Fin 0 → Fin S3x64x64.rank)
  reducesTo_S3x64x64_S_d0_1_2 : S3x64x64.ReducesTo [0, 1, 2] S_
  bcast_S_S3x64 : S_.BroadcastsInDim S3x64 (![] : Fin 0 → Fin S3x64.rank)
  reducesTo_S3x64_S_d0_1 : S3x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg9 : FVec F S64x32 .f32) (main_arg10 : FVec F S32 .f32) (main_v33 : IVec S_ 1) : IVec S_ 1 :=
  let main_v34 : FVec F S64x32 .f32 := Host.absf main_arg9
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  main_v43

def fn_part1 {F : FTy → Type} [FloatOps F] (main_arg6 : FVec F S3x64 .f32) (main_arg7 : FVec F S3x64x64 .f32) (main_arg8 : FVec F S3x64 .f32) (main_arg9 : FVec F S64x32 .f32) (main_arg10 : FVec F S32 .f32) (main_v13 : IVec S_ 1) (main_v16 : IVec S3x64x64 1) : IVec S_ 1 :=
  let main_c_5 : IVec S_ 1 := constantI S_ 1 1#1
  let main_v17 : IVec S_ 1 := (fun x v => Host.reduce IntOp.andi x v reducesTo_S3x64x64_S_d0_1_2 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64x64 .f32 := Host.absf main_arg7
  let main_cst_8 : FVec F S_ .f32 := constant S_ .f32 0x7F800000#32
  let main_v25 : FVec F S3x64x64 .f32 := broadcastInDim S3x64x64 ![] bcast_S_S3x64x64 main_cst_8
  let main_v26 : IVec S3x64x64 1 := cmpf .olt main_v24 main_v25
  let main_c_9 : IVec S_ 1 := constantI S_ 1 1#1
  let main_v27 : IVec S_ 1 := (fun x v => Host.reduce IntOp.andi x v reducesTo_S3x64x64_S_d0_1_2 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S100000x32 .f32) (main_arg1 : IVec S2x1000000 32) (main_arg2 : IVec S100000 32) (main_arg3 : FVec F S32x64 .f32) (main_arg4 : FVec F S64 .f32) (main_arg5 : FVec F S3x64x64 .f32) (main_arg6 : FVec F S3x64 .f32) (main_arg7 : FVec F S3x64x64 .f32) (main_arg8 : FVec F S3x64 .f32) (main_arg9 : FVec F S64x32 .f32) (main_arg10 : FVec F S32 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x64 .f32 := Host.absf main_arg3
  let main_cst_0 : FVec F S_ .f32 := constant S_ .f32 0x7F800000#32
  let main_v5 : FVec F S32x64 .f32 := broadcastInDim S32x64 ![] bcast_S_S32x64 main_cst_0
  let main_v6 : IVec S32x64 1 := cmpf .olt main_v4 main_v5
  let main_c_1 : IVec S_ 1 := constantI S_ 1 1#1
  let main_v7 : IVec S_ 1 := (fun x v => Host.reduce IntOp.andi x v reducesTo_S32x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x64x64 .f32 := Host.absf main_arg5
  let main_cst_4 : FVec F S_ .f32 := constant S_ .f32 0x7F800000#32
  let main_v15 : FVec F S3x64x64 .f32 := broadcastInDim S3x64x64 ![] bcast_S_S3x64x64 main_cst_4
  let main_v16 : IVec S3x64x64 1 := cmpf .olt main_v14 main_v15
  fn_part1 (F := F) main_arg6 main_arg7 main_arg8 main_arg9 main_arg10 main_v13 main_v16
-- ==== Kernel.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S1x1000000 : Shape := ⟨2, ![1, 1000000]⟩
abbrev S1000000 : Shape := ⟨1, ![1000000]⟩
abbrev S1x64 : Shape := ⟨2, ![1, 64]⟩
abbrev S100000x64 : Shape := ⟨2, ![100000, 64]⟩
abbrev S5000x32 : Shape := ⟨2, ![5000, 32]⟩
abbrev S5000x64 : Shape := ⟨2, ![5000, 64]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S128x64 : Shape := ⟨2, ![128, 64]⟩
abbrev S100000x1 : Shape := ⟨2, ![100000, 1]⟩
abbrev S128x32 : Shape := ⟨2, ![128, 32]⟩
abbrev S1x32 : Shape := ⟨2, ![1, 32]⟩

abbrev nBuf : Space → Nat
  | .hbm => 104
  | .vmem => 44
  | .smem => 0
  | _ => 0

abbrev bufTy : (tb : Table) → Fin (tcTables nBuf tb) → BufTy
  | .hbm, ⟨0, _⟩ => ⟨S100000x32, .f32⟩
  | .hbm, ⟨1, _⟩ => ⟨S2x1000000, .i32⟩
  | .hbm, ⟨2, _⟩ => ⟨S100000, .i32⟩
  | .hbm, ⟨3, _⟩ => ⟨S32x64, .f32⟩
  | .hbm, ⟨4, _⟩ => ⟨S64, .f32⟩
  | .hbm, ⟨5, _⟩ => ⟨S3x64x64, .f32⟩
  | .hbm, ⟨6, _⟩ => ⟨S3x64, .f32⟩
  | .hbm, ⟨7, _⟩ => ⟨S3x64x64, .f32⟩
  | .hbm, ⟨8, _⟩ => ⟨S3x64, .f32⟩
  | .hbm, ⟨9, _⟩ => ⟨S64x32, .f32⟩
  | .hbm, ⟨10, _⟩ => ⟨S32, .f32⟩
  | .hbm, ⟨11, _⟩ => ⟨S1x1000000, .i32⟩
  | .hbm, ⟨12, _⟩ => ⟨S1000000, .i32⟩
  | .hbm, ⟨13, _⟩ => ⟨S1x1000000, .i32⟩
  | .hbm, ⟨14, _⟩ => ⟨S1000000, .i32⟩
  | .hbm, ⟨15, _⟩ => ⟨S1x64, .f32⟩
  | .hbm, ⟨16, _⟩ => ⟨S100000x64, .f32⟩
  | .hbm, ⟨17, _⟩ => ⟨S100000x64, .bf16⟩
  | .hbm, ⟨18, _⟩ => ⟨S_, .i32⟩
  | .hbm, ⟨19, _⟩ => ⟨S1000000, .i32⟩
  | .hbm, ⟨20, _⟩ => ⟨S1000000, .i1⟩
  | .hbm, ⟨21, _⟩ => ⟨S_, .i32⟩
  | .hbm, ⟨22, _⟩ => ⟨S1000000, .i32⟩
  | .hbm, ⟨23, _⟩ => ⟨S1000000, .i32⟩
  | .hbm, ⟨24, _⟩ => ⟨S1000000, .i32⟩
  | .hbm, ⟨25, _⟩ => ⟨S1000000x1, .i32⟩
  | .hbm, ⟨26, _⟩ => ⟨S1000000x64, .bf16⟩
  | .hbm, ⟨27, _⟩ => ⟨S1000000x64, .f32⟩
  | .hbm, ⟨28, _⟩ => ⟨S_, .f32⟩
  | .hbm, ⟨29, _⟩ => ⟨S100000x64, .f32⟩
  | .hbm, ⟨30, _⟩ => ⟨S1000000x1, .i32⟩
  | .hbm, ⟨31, _⟩ => ⟨S100000x64, .f32⟩
  | .hbm, ⟨32, _⟩ => ⟨S1x64x64, .f32⟩
  | .hbm, ⟨33, _⟩ => ⟨S64x64, .f32⟩
  | .hbm, ⟨34, _⟩ => ⟨S1x64, .f32⟩
  | .hbm, ⟨35, _⟩ => ⟨S64, .f32⟩
  | .hbm, ⟨36, _⟩ => ⟨S1x64x64, .f32⟩
  | .hbm, ⟨37, _⟩ => ⟨S64x64, .f32⟩
  | .hbm, ⟨38, _⟩ => ⟨S1x64, .f32⟩
  | .hbm, ⟨39, _⟩ => ⟨S64, .f32⟩
  | .hbm, ⟨40, _⟩ => ⟨S1x64, .f32⟩
  | .hbm, ⟨41, _⟩ => ⟨S1x64, .f32⟩
  | .hbm, ⟨42, _⟩ => ⟨S100000x64, .f32⟩
  | .hbm, ⟨43, _⟩ => ⟨S100000x64, .bf16⟩
  | .hbm, ⟨44, _⟩ => ⟨S_, .i32⟩
  | .hbm, ⟨45, _⟩ => ⟨S1000000, .i32⟩
  | .hbm, ⟨46, _⟩ => ⟨S1000000, .i1⟩
  | .hbm, ⟨47, _⟩ => ⟨S_, .i32⟩
  | .hbm, ⟨48, _⟩ => ⟨S1000000, .i32⟩
  | .hbm, ⟨49, _⟩ => ⟨S1000000, .i32⟩
  | .hbm, ⟨50, _⟩ => ⟨S1000000, .i32⟩
  | .hbm, ⟨51, _⟩ => ⟨S1000000x1, .i32⟩
  | .hbm, ⟨52, _⟩ => ⟨S1000000x64, .bf16⟩
  | .hbm, ⟨53, _⟩ => ⟨S1000000x64, .f32⟩
  | .hbm, ⟨54, _⟩ => ⟨S_, .f32⟩
  | .hbm, ⟨55, _⟩ => ⟨S100000x64, .f32⟩
  | .hbm, ⟨56, _⟩ => ⟨S1000000x1, .i32⟩
  | .hbm, ⟨57, _⟩ => ⟨S100000x64, .f32⟩
  | .hbm, ⟨58, _⟩ => ⟨S1x64x64, .f32⟩
  | .hbm, ⟨59, _⟩ => ⟨S64x64, .f32⟩
  | .hbm, ⟨60, _⟩ => ⟨S1x64, .f32⟩
  | .hbm, ⟨61, _⟩ => ⟨S64, .f32⟩
  | .hbm, ⟨62, _⟩ => ⟨S1x64x64, .f32⟩
  | .hbm, ⟨63, _⟩ => ⟨S64x64, .f32⟩
  | .hbm, ⟨64, _⟩ => ⟨S1x64, .f32⟩
  | .hbm, ⟨65, _⟩ => ⟨S64, .f32⟩
  | .hbm, ⟨66, _⟩ => ⟨S1x64, .f32⟩
  | .hbm, ⟨67, _⟩ => ⟨S1x64, .f32⟩
  | .hbm, ⟨68, _⟩ => ⟨S100000x64, .f32⟩
  | .hbm, ⟨69, _⟩ => ⟨S100000x64, .bf16⟩
  | .hbm, ⟨70, _⟩ => ⟨S_, .i32⟩
  | .hbm, ⟨71, _⟩ => ⟨S1000000, .i32⟩
  | .hbm, ⟨72, _⟩ => ⟨S1000000, .i1⟩
  | .hbm, ⟨73, _⟩ => ⟨S_, .i32⟩
  | .hbm, ⟨74, _⟩ => ⟨S1000000, .i32⟩
  | .hbm, ⟨75, _⟩ => ⟨S1000000, .i32⟩
  | .hbm, ⟨76, _⟩ => ⟨S1000000, .i32⟩
  | .hbm, ⟨77, _⟩ => ⟨S1000000x1, .i32⟩
  | .hbm, ⟨78, _⟩ => ⟨S1000000x64, .bf16⟩
  | .hbm, ⟨79, _⟩ => ⟨S1000000x64, .f32⟩
  | .hbm, ⟨80, _⟩ => ⟨S_, .f32⟩
  | .hbm, ⟨81, _⟩ => ⟨S100000x64, .f32⟩
  | .hbm, ⟨82, _⟩ => ⟨S1000000x1, .i32⟩
  | .hbm, ⟨83, _⟩ => ⟨S100000x64, .f32⟩
  | .hbm, ⟨84, _⟩ => ⟨S1x64x64, .f32⟩
  | .hbm, ⟨85, _⟩ => ⟨S64x64, .f32⟩
  | .hbm, ⟨86, _⟩ => ⟨S1x64, .f32⟩
  | .hbm, ⟨87, _⟩ => ⟨S64, .f32⟩
  | .hbm, ⟨88, _⟩ => ⟨S1x64x64, .f32⟩
  | .hbm, ⟨89, _⟩ => ⟨S64x64, .f32⟩
  | .hbm, ⟨90, _⟩ => ⟨S1x64, .f32⟩
  | .hbm, ⟨91, _⟩ => ⟨S64, .f32⟩
  | .hbm, ⟨92, _⟩ => ⟨S1x64, .f32⟩
  | .hbm, ⟨93, _⟩ => ⟨S1x64, .f32⟩
  | .hbm, ⟨94, _⟩ => ⟨S100000x64, .f32⟩
  | .hbm, ⟨95, _⟩ => ⟨S100000x64, .bf16⟩
  | .hbm, ⟨96, _⟩ => ⟨S_, .f32⟩
  | .hbm, ⟨97, _⟩ => ⟨S128x64, .f32⟩
  | .hbm, ⟨98, _⟩ => ⟨S100000x1, .i32⟩
  | .hbm, ⟨99, _⟩ => ⟨S128x64, .f32⟩
  | .hbm, ⟨100, _⟩ => ⟨S128x32, .f32⟩
  | .hbm, ⟨101, _⟩ => ⟨S1x32, .f32⟩
  | .hbm, ⟨102, _⟩ => ⟨S128x32, .f32⟩
  | .hbm, ⟨103, _⟩ => ⟨S128x32, .f32⟩
  | .local _ .vmem, ⟨0, _⟩ => ⟨S5000x32, .f32⟩
  | .local _ .vmem, ⟨1, _⟩ => ⟨S5000x32, .f32⟩
  | .local _ .vmem, ⟨2, _⟩ => ⟨S32x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .bf16⟩
  | .local _ .vmem, ⟨7, _⟩ => ⟨S5000x64, .bf16⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S1x64, .f32⟩
  | .local _ .vmem, ⟨14, _⟩ => ⟨S64x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .bf16⟩
  | .local _ .vmem, ⟨19, _⟩ => ⟨S5000x64, .bf16⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .bf16⟩
  | .local _ .vmem, ⟨31, _⟩ => ⟨S5000x64, .bf16⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S64x64, .f32⟩
  | .local _ .vmem, ⟨37, _⟩ => ⟨S1x64, .f32⟩
  | .local _ .vmem, ⟨38, _⟩ => ⟨S64x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .bf16⟩
  | .local _ .vmem, ⟨43, _⟩ => ⟨S5000x64, .bf16⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_c : Ref sig .tc := ⟨.hbm, 18, rfl⟩
abbrev main_v6 : Ref sig .tc := ⟨.hbm, 19, rfl⟩
abbrev main_v7 : Ref sig .tc := ⟨.hbm, 20, rfl⟩
abbrev main_c_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27_0 : Ref sig .tc := ⟨.hbm, 42, rfl⟩
abbrev main_v27_1 : Ref sig .tc := ⟨.hbm, 43, rfl⟩
abbrev main_c_1 : Ref sig .tc := ⟨.hbm, 44, rfl⟩
abbrev main_v28 : Ref sig .tc := ⟨.hbm, 45, rfl⟩
abbrev main_v29 : Ref sig .tc := ⟨.hbm, 46, rfl⟩
abbrev main_c_2 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_3 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49_0 : Ref sig .tc := ⟨.hbm, 68, rfl⟩
abbrev main_v49_1 : Ref sig .tc := ⟨.hbm, 69, rfl⟩
abbrev main_c_4 : Ref sig .tc := ⟨.hbm, 70, rfl⟩
abbrev main_v50 : Ref sig .tc := ⟨.hbm, 71, rfl⟩
abbrev main_v51 : Ref sig .tc := ⟨.hbm, 72, rfl⟩
abbrev main_c_5 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_6 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71_0 : Ref sig .tc := ⟨.hbm, 94, rfl⟩
abbrev main_v71_1 : Ref sig .tc := ⟨.hbm, 95, rfl⟩
abbrev main_cst_7 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg6_1 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc2_stg7_0 : Ref sig .tc := ⟨.vmem, 30, rfl⟩
abbrev cc2_stg7_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg3_0 : Ref sig .tc := ⟨.vmem, 37, rfl⟩
abbrev cc3_stg4_0 : Ref sig .tc := ⟨.vmem, 38, rfl⟩
abbrev cc3_stg5_0 : Ref sig .tc := ⟨.vmem, 39, rfl⟩
abbrev cc3_stg6_0 : Ref sig .tc := ⟨.vmem, 40, rfl⟩
abbrev cc3_stg6_1 : Ref sig .tc := ⟨.vmem, 41, rfl⟩
abbrev cc3_stg7_0 : Ref sig .tc := ⟨.vmem, 42, rfl⟩
abbrev cc3_stg7_1 : Ref sig .tc := ⟨.vmem, 43, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem6_1 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem3_0 : DmaSem sig := 37
abbrev cc3_sem4_0 : DmaSem sig := 38
abbrev cc3_sem5_0 : DmaSem sig := 39
abbrev cc3_sem6_0 : DmaSem sig := 40
abbrev cc3_sem6_1 : DmaSem sig := 41
abbrev cc3_sem7_0 : DmaSem sig := 42
abbrev cc3_sem7_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S5000x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S5000x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S5000x64 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 2 → Memref sig .tc .vmem S5000x64 .bf16 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

class Facts₀ : Prop where
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  shapeCasts_S64_S1x64 : S64.ShapeCasts S1x64
  inb_S5000x32_S5000x32_0_0 : ∀ a, (![0, 0] : Fin 2 → Nat) a + S5000x32.size a ≤ S5000x32.size a
  h_S5000x32 : 0 < S5000x32.numel
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  dot_S5000x32_S32x64_S5000x64_1_0_0_1_n_n_wf : DotDims.WF S5000x32 S32x64 S5000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S5000x64_S64x64_S5000x64_1_0_0_1_n_n_wf : DotDims.WF S5000x64 S64x64 S5000x64 [1] [0] [0] [1] [] []
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x32.size a ≤ S100000x32.size a
  hwx0_0 : ∀ i : grid0.Coords, EltTy.bits .f32 = 32 ∨ (Rect.block (s := S100000x32) S5000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x64.size a ≤ S32x64.size a
  hwx0_1 : ∀ i : grid0.Coords, EltTy.bits .f32 = 32 ∨ (Rect.block (s := S32x64) S32x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x64.size a ≤ S100000x64.size a
  hwx0_4 : ∀ i : grid0.Coords, EltTy.bits .bf16 = 32 ∨ (Rect.block (s := S100000x64) S5000x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S100000x64.size a
  hwx1_7 : ∀ i : grid1.Coords, EltTy.bits .bf16 = 32 ∨ (Rect.block (s := S100000x64) S5000x64.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x64.size a ≤ S64x64.size a
  hwx2_4 : ∀ i : grid2.Coords, EltTy.bits .f32 = 32 ∨ (Rect.block (s := S64x64) S64x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x64.size a ≤ S100000x64.size a
  hwx2_6 : ∀ i : grid2.Coords, EltTy.bits .f32 = 32 ∨ (Rect.block (s := S100000x64) S5000x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S100000x64.size a
  hwx2_7 : ∀ i : grid2.Coords, EltTy.bits .bf16 = 32 ∨ (Rect.block (s := S100000x64) S5000x64.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S100000x64.size a
  hwx3_1 : ∀ i : grid3.Coords, EltTy.bits .f32 = 32 ∨ (Rect.block (s := S100000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S100000x64.size a
  hwx3_6 : ∀ i : grid3.Coords, EltTy.bits .f32 = 32 ∨ (Rect.block (s := S100000x64) S5000x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S100000x64.size a
  hwx3_7 : ∀ i : grid3.Coords, EltTy.bits .bf16 = 32 ∨ (Rect.block (s := S100000x64) S5000x64.size (cc3_transform_7 i) (hinb3_7 i)).WholeWords (EltTy.packing .bf16)

variable [Facts₀]

def dot_S5000x32_S32x64_S5000x64_1_0_0_1_n_n : DotDims S5000x32 S32x64 S5000x64 where
  lhsContracting := [1]
  rhsContracting := [0]
  lhsNonContracting := [0]
  rhsNonContracting := [1]
  lhsBatch := []
  rhsBatch := []
  wf := dot_S5000x32_S32x64_S5000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

abbrev win0_0 : Pipeline.Window sig grid0 :=
  Pipeline.Window.ofSpec (Memref.whole main_arg0) S5000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S32x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5_0) S5000x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5_1) S5000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v5_0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v18) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v25) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v22) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27_0) S5000x64.size cc1_transform_6 reads1_6 true false 2 stage1_6 sem1_6
    hrank1 hreads1_6 hinb1_6 nbuf1_6 (Memref.isWhole_whole _) hwx1_6 hstage1_6

abbrev win1_7 : Pipeline.Window sig grid1 :=
  Pipeline.Window.ofSpec (Memref.whole main_v27_1) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v27_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v47) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v44) S64x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v49_0) S5000x64.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v49_1) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v49_0) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v62) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v66) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v70) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v71_0) S5000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v71_1) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

class Facts : Prop extends Facts₀ where

variable [Facts]
-- ==== ReferenceIdeal.lean ====
abbrev S100000x32 : Shape := ⟨2, ![100000, 32]⟩
abbrev S2x1000000 : Shape := ⟨2, ![2, 1000000]⟩
abbrev S100000 : Shape := ⟨1, ![100000]⟩
abbrev S32x64 : Shape := ⟨2, ![32, 64]⟩
abbrev S64 : Shape := ⟨1, ![64]⟩
abbrev S3x64x64 : Shape := ⟨3, ![3, 64, 64]⟩
abbrev S3x64 : Shape := ⟨2, ![3, 64]⟩
abbrev S64x32 : Shape := ⟨2, ![64, 32]⟩
abbrev S32 : Shape := ⟨1, ![32]⟩
abbrev S100000x64 : Shape := ⟨2, ![100000, 64]⟩
abbrev S1x64 : Shape := ⟨2, ![1, 64]⟩
abbrev S1x1000000 : Shape := ⟨2, ![1, 1000000]⟩
abbrev S1000000 : Shape := ⟨1, ![1000000]⟩
abbrev S_ : Shape := ⟨0, ![]⟩
abbrev S1000000x1 : Shape := ⟨2, ![1000000, 1]⟩
abbrev S1000000x64 : Shape := ⟨2, ![1000000, 64]⟩
abbrev S1x64x64 : Shape := ⟨3, ![1, 64, 64]⟩
abbrev S64x64 : Shape := ⟨2, ![64, 64]⟩
abbrev S128x64 : Shape := ⟨2, ![128, 64]⟩
abbrev S100000x1 : Shape := ⟨2, ![100000, 1]⟩
abbrev S128x32 : Shape := ⟨2, ![128, 32]⟩
abbrev S1x32 : Shape := ⟨2, ![1, 32]⟩

abbrev nBuf : Space → Nat
  | .hbm => 138
  | .vmem => 0
  | .smem => 0
  | _ => 0

abbrev hbmTy0_0 (i : Nat) : BufTy := match i % 128 with
  | 0 => ⟨S100000x32, .f32⟩
  | 1 => ⟨S2x1000000, .i32⟩
  | 2 => ⟨S100000, .i32⟩
  | 3 => ⟨S32x64, .f32⟩
  | 4 => ⟨S64, .f32⟩
  | 5 => ⟨S3x64x64, .f32⟩
  | 6 => ⟨S3x64, .f32⟩
  | 7 => ⟨S3x64x64, .f32⟩
  | 8 => ⟨S3x64, .f32⟩
  | 9 => ⟨S64x32, .f32⟩
  | 10 => ⟨S32, .f32⟩
  | 11 => ⟨S100000x64, .f32⟩
  | 12 => ⟨S1x64, .f32⟩
  | 13 => ⟨S100000x64, .f32⟩
  | 14 => ⟨S100000x64, .f32⟩
  | 15 => ⟨S1x1000000, .i32⟩
  | 16 => ⟨S1000000, .i32⟩
  | 17 => ⟨S1x1000000, .i32⟩
  | 18 => ⟨S1000000, .i32⟩
  | 19 => ⟨S_, .i32⟩
  | 20 => ⟨S1000000, .i32⟩
  | 21 => ⟨S1000000, .i1⟩
  | 22 => ⟨S_, .i32⟩
  | 23 => ⟨S1000000, .i32⟩
  | 24 => ⟨S1000000, .i32⟩
  | 25 => ⟨S1000000, .i32⟩
  | 26 => ⟨S1000000x1, .i32⟩
  | 27 => ⟨S1000000x64, .f32⟩
  | 28 => ⟨S_, .f32⟩
  | 29 => ⟨S100000x64, .f32⟩
  | 30 => ⟨S1000000x1, .i32⟩
  | 31 => ⟨S100000x64, .f32⟩
  | 32 => ⟨S100000x64, .f32⟩
  | 33 => ⟨S1x64x64, .f32⟩
  | 34 => ⟨S64x64, .f32⟩
  | 35 => ⟨S100000x64, .f32⟩
  | 36 => ⟨S1x64, .f32⟩
  | 37 => ⟨S64, .f32⟩
  | 38 => ⟨S1x64, .f32⟩
  | 39 => ⟨S100000x64, .f32⟩
  | 40 => ⟨S100000x64, .f32⟩
  | 41 => ⟨S_, .f32⟩
  | 42 => ⟨S100000x64, .f32⟩
  | 43 => ⟨S100000x64, .f32⟩
  | 44 => ⟨S1x64x64, .f32⟩
  | 45 => ⟨S64x64, .f32⟩
  | 46 => ⟨S100000x64, .f32⟩
  | 47 => ⟨S1x64, .f32⟩
  | 48 => ⟨S64, .f32⟩
  | 49 => ⟨S1x64, .f32⟩
  | 50 => ⟨S100000x64, .f32⟩
  | 51 => ⟨S100000x64, .f32⟩
  | 52 => ⟨S_, .f32⟩
  | 53 => ⟨S100000x64, .f32⟩
  | 54 => ⟨S100000x64, .f32⟩
  | 55 => ⟨S100000x64, .f32⟩
  | 56 => ⟨S_, .i32⟩
  | 57 => ⟨S1000000, .i32⟩
  | 58 => ⟨S1000000, .i1⟩
  | 59 => ⟨S_, .i32⟩
  | 60 => ⟨S1000000, .i32⟩
  | 61 => ⟨S1000000, .i32⟩
  | 62 => ⟨S1000000, .i32⟩
  | 63 => ⟨S1000000x1, .i32⟩
  | 64 => ⟨S1000000x64, .f32⟩
  | 65 => ⟨S_, .f32⟩
  | 66 => ⟨S100000x64, .f32⟩
  | 67 => ⟨S1000000x1, .i32⟩
  | 68 => ⟨S100000x64, .f32⟩
  | 69 => ⟨S100000x64, .f32⟩
  | 70 => ⟨S1x64x64, .f32⟩
  | 71 => ⟨S64x64, .f32⟩
  | 72 => ⟨S100000x64, .f32⟩
  | 73 => ⟨S1x64, .f32⟩
  | 74 => ⟨S64, .f32⟩
  | 75 => ⟨S1x64, .f32⟩
  | 76 => ⟨S100000x64, .f32⟩
  | 77 => ⟨S100000x64, .f32⟩
  | 78 => ⟨S_, .f32⟩
  | 79 => ⟨S100000x64, .f32⟩
  | 80 => ⟨S100000x64, .f32⟩
  | 81 => ⟨S1x64x64, .f32⟩
  | 82 => ⟨S64x64, .f32⟩
  | 83 => ⟨S100000x64, .f32⟩
  | 84 => ⟨S1x64, .f32⟩
  | 85 => ⟨S64, .f32⟩
  | 86 => ⟨S1x64, .f32⟩
  | 87 => ⟨S100000x64, .f32⟩
  | 88 => ⟨S100000x64, .f32⟩
  | 89 => ⟨S_, .f32⟩
  | 90 => ⟨S100000x64, .f32⟩
  | 91 => ⟨S100000x64, .f32⟩
  | 92 => ⟨S100000x64, .f32⟩
  | 93 => ⟨S_, .i32⟩
  | 94 => ⟨S1000000, .i32⟩
  | 95 => ⟨S1000000, .i1⟩
  | 96 => ⟨S_, .i32⟩
  | 97 => ⟨S1000000, .i32⟩
  | 98 => ⟨S1000000, .i32⟩
  | 99 => ⟨S1000000, .i32⟩
  | 100 => ⟨S1000000x1, .i32⟩
  | 101 => ⟨S1000000x64, .f32⟩
  | 102 => ⟨S_, .f32⟩
  | 103 => ⟨S100000x64, .f32⟩
  | 104 => ⟨S1000000x1, .i32⟩
  | 105 => ⟨S100000x64, .f32⟩
  | 106 => ⟨S100000x64, .f32⟩
  | 107 => ⟨S1x64x64, .f32⟩
  | 108 => ⟨S64x64, .f32⟩
  | 109 => ⟨S100000x64, .f32⟩
  | 110 => ⟨S1x64, .f32⟩
  | 111 => ⟨S64, .f32⟩
  | 112 => ⟨S1x64, .f32⟩
  | 113 => ⟨S100000x64, .f32⟩
  | 114 => ⟨S100000x64, .f32⟩
  | 115 => ⟨S_, .f32⟩
  | 116 => ⟨S100000x64, .f32⟩
  | 117 => ⟨S100000x64, .f32⟩
  | 118 => ⟨S1x64x64, .f32⟩
  | 119 => ⟨S64x64, .f32⟩
  | 120 => ⟨S100000x64, .f32⟩
  | 121 => ⟨S1x64, .f32⟩
  | 122 => ⟨S64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x32, .f32⟩

abbrev hbmTy0_1 (i : Nat) : BufTy := match i % 128 with
  | 0 => ⟨S100000x64, .f32⟩
  | 1 => ⟨S100000x64, .f32⟩
  | 2 => ⟨S_, .f32⟩
  | 3 => ⟨S128x64, .f32⟩
  | 4 => ⟨S100000x1, .i32⟩
  | 5 => ⟨S128x64, .f32⟩
  | 6 => ⟨S128x32, .f32⟩
  | 7 => ⟨S1x32, .f32⟩
  | 8 => ⟨S128x32, .f32⟩
  | 9 => ⟨S128x32, .f32⟩
  | _ => ⟨S100000x32, .f32⟩

abbrev hbmTy (i : Nat) : BufTy := match i / 128 with
  | 0 => hbmTy0_0 i
  | 1 => hbmTy0_1 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_c : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_call0_cst : Ref sig .tc := ⟨.hbm, 41, rfl⟩
abbrev main_call0_v0 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_v36 : Ref sig .tc := ⟨.hbm, 54, rfl⟩
abbrev main_v37 : Ref sig .tc := ⟨.hbm, 55, rfl⟩
abbrev main_c_1 : Ref sig .tc := ⟨.hbm, 56, rfl⟩
abbrev main_v38 : Ref sig .tc := ⟨.hbm, 57, rfl⟩
abbrev main_v39 : Ref sig .tc := ⟨.hbm, 58, rfl⟩
abbrev main_c_2 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_3 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_call2_cst : Ref sig .tc := ⟨.hbm, 78, rfl⟩
abbrev main_call2_v0 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_call3_cst : Ref sig .tc := ⟨.hbm, 89, rfl⟩
abbrev main_call3_v0 : Ref sig .tc := ⟨.hbm, 90, rfl⟩
abbrev main_v66 : Ref sig .tc := ⟨.hbm, 91, rfl⟩
abbrev main_v67 : Ref sig .tc := ⟨.hbm, 92, rfl⟩
abbrev main_c_4 : Ref sig .tc := ⟨.hbm, 93, rfl⟩
abbrev main_v68 : Ref sig .tc := ⟨.hbm, 94, rfl⟩
abbrev main_v69 : Ref sig .tc := ⟨.hbm, 95, rfl⟩
abbrev main_c_5 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_6 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_call4_cst : Ref sig .tc := ⟨.hbm, 115, rfl⟩
abbrev main_call4_v0 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_call5_cst : Ref sig .tc := ⟨.hbm, 126, rfl⟩
abbrev main_call5_v0 : Ref sig .tc := ⟨.hbm, 127, rfl⟩
abbrev main_v96 : Ref sig .tc := ⟨.hbm, 128, rfl⟩
abbrev main_v97 : Ref sig .tc := ⟨.hbm, 129, rfl⟩
abbrev main_cst_7 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S100000x64 : S_.BroadcastsInDim S100000x64 (![] : Fin 0 → Fin S100000x64.rank)
  slices_S3x64x64_S1x64x64_0_0_0 : S3x64x64.Slices ![0, 0, 0] S1x64x64
  shapeCasts_S1x64x64_S64x64 : S1x64x64.ShapeCasts S64x64
  slices_S3x64_S1x64_0_0 : S3x64.Slices ![0, 0] S1x64
  shapeCasts_S1x64_S64 : S1x64.ShapeCasts S64
  slices_S3x64x64_S1x64x64_1_0_0 : S3x64x64.Slices ![1, 0, 0] S1x64x64
  slices_S3x64_S1x64_1_0 : S3x64.Slices ![1, 0] S1x64
  slices_S3x64x64_S1x64x64_2_0_0 : S3x64x64.Slices ![2, 0, 0] S1x64x64
  slices_S3x64_S1x64_2_0 : S3x64.Slices ![2, 0] S1x64
  bcast_S_S128x64 : S_.BroadcastsInDim S128x64 (![] : Fin 0 → Fin S128x64.rank)
  bcast_S100000_S100000x1_0 : S100000.BroadcastsInDim S100000x1 (![0] : Fin 1 → Fin S100000x1.rank)
  bcast_S32_S1x32_1 : S32.BroadcastsInDim S1x32 (![1] : Fin 1 → Fin S1x32.rank)
  bcast_S1x32_S128x32_0_1 : S1x32.BroadcastsInDim S128x32 (![0, 1] : Fin 2 → Fin S128x32.rank)
  dot_S100000x32_S32x64_S100000x64_1_0_0_1_n_n_wf : DotDims.WF S100000x32 S32x64 S100000x64 [1] [0] [0] [1] [] []
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []
  scatter_S128x64_S100000x1_S100000x64_1_0_0_1_wf : ScatterDims.WF S128x64 S100000x1 S100000x64 [1] [0] [0] 1
  dot_S128x64_S64x32_S128x32_1_0_0_1_n_n_wf : DotDims.WF S128x64 S64x32 S128x32 [1] [0] [0] [1] [] []

variable [Facts₀]

def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S128x64_S100000x1_S100000x64_1_0_0_1 : ScatterDims S128x64 S100000x1 S100000x64 where
  updateWindowDims := [1]
  insertedWindowDims := [0]
  scatterDimsToOperandDims := [0]
  indexVectorDim := 1
  wf := scatter_S128x64_S100000x1_S100000x64_1_0_0_1_wf
def dot_S128x64_S64x32_S128x32_1_0_0_1_n_n : DotDims S128x64 S64x32 S128x32 where
  lhsContracting := [1]
  rhsContracting := [0]
  lhsNonContracting := [0]
  rhsNonContracting := [1]
  lhsBatch := []
  rhsBatch := []
  wf := dot_S128x64_S64x32_S128x32_1_0_0_1_n_n_wf

class Facts : Prop extends Facts₀ where

variable [Facts]
-- ==== Proof.KernelRun.lean ====
/-
  The idealized kernel's run with its result named.

  The program is four kernel regions among five stretches of host operations. Its buffer contents at each boundary
  between a stretch and a region are a fold from the launch memory: a stretch's operations applied in order, a
  region's arrays at what its write-backs leave. Every weakly fair execution ends with every unscoped buffer at the
  last boundary's contents; so the result buffer ends at the last boundary's contents of that buffer, and each argument
  at its launch contents (no stretch and no region writes an argument).
-/
import proofs.«131369_j32332513804324_2_alg».proof.Proof.Gen.KernelIdeal.Frame

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with the result buffer at the last boundary's contents
    and the arguments as launched. -/
theorem run : θ_run defs (onTc (τ := τ) (main (F := F))) ⟨m, fun _ => 0, ρ⟩ (fun r => ∀ c : Dev nD,
      r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c),
       (h c _ (mem_uc main_arg9 (by decide))).trans (W9_main_arg9 m ρ c),
       (h c _ (mem_uc main_arg10 (by decide))).trans (W9_main_arg10 m ρ c)⟩)

end Cert.KernelIdeal.ValueRun

end
-- ==== Proof.LibDenseLayer.lean ====
/-
  A dense layer on the extended reals. For `x : [M, K]`, `w : [K, N]` and a bias `b` per column, the entry `(p, q)`
  of `x · w + b` is `(∑ k, x (p, k) · w (k, q)) + b q`: row `p` of `x` against column `q` of `w`. `denseClamp` is the same
  layer applied to `max x z`, the entries of `x` clamped below at `z` (a rectifier when `z` is zero).

  An entry of the layer depends on ONE row of `x` only. So a block of consecutive rows of the layer's output is the layer
  applied to that block of rows of `x` (`denseAt_rows`): computing the layer block of rows by block of rows, in any
  order, gives the layer.
-/
import Idealize.ShloMosaic.Lib.ValueIdx

noncomputable section

open scoped BigOperators

namespace Cert.DenseLayer

open Idealize.ShloMosaic Idealize.ShloMosaic.ValueIdx

/-- Entry `(p, q)` of `x · w + b`. -/
def denseAt {M K N : ℕ} (x : (⟨2, ![M, K]⟩ : Shape).Idx → EReal) (w : (⟨2, ![K, N]⟩ : Shape).Idx → EReal) (b : Fin N → EReal)
    (p : Fin M) (q : Fin N) : EReal :=
  (∑ k : Fin K, x (ix2 p k) * w (ix2 k q)) + b q

/-- The array `x · w + b`. -/
def dense {M K N : ℕ} (x : (⟨2, ![M, K]⟩ : Shape).Idx → EReal) (w : (⟨2, ![K, N]⟩ : Shape).Idx → EReal) (b : Fin N → EReal) :
    (⟨2, ![M, N]⟩ : Shape).Idx → EReal :=
  fun i => denseAt x w b (i 0) (i 1)

theorem dense_ix2 {M K N : ℕ} (x : (⟨2, ![M, K]⟩ : Shape).Idx → EReal) (w : (⟨2, ![K, N]⟩ : Shape).Idx → EReal) (b : Fin N → EReal)
    (p : Fin M) (q : Fin N) : dense x w b (ix2 p q) = denseAt x w b p q := rfl

/-- The array `max x z · w + b`. -/
def denseClamp {M K N : ℕ} (z : EReal) (x : (⟨2, ![M, K]⟩ : Shape).Idx → EReal) (w : (⟨2, ![K, N]⟩ : Shape).Idx → EReal)
    (b : Fin N → EReal) : (⟨2, ![M, N]⟩ : Shape).Idx → EReal :=
  dense (fun i => max (x i) z) w b

/-- Row `p` of the layer on a block of rows is row `P` of the layer on the whole array, when row `p` of the block is
    row `P` of the array. -/
theorem denseAt_rows {M m K N : ℕ} (x : (⟨2, ![M, K]⟩ : Shape).Idx → EReal) (xb : (⟨2, ![m, K]⟩ : Shape).Idx → EReal)
    (w : (⟨2, ![K, N]⟩ : Shape).Idx → EReal) (b : Fin N → EReal) (p : Fin m) (P : Fin M) (q : Fin N)
    (h : ∀ k : Fin K, xb (ix2 p k) = x (ix2 P k)) : denseAt xb w b p q = denseAt x w b P q := by
  unfold denseAt
  exact congrArg (· + b q) (Finset.sum_congr rfl fun k _ => by rw [h k])

end Cert.DenseLayer

end
-- ==== Proof.LibPlainMatmul.lean ====
/-
  A plain matrix product `[M, K] · [K, N]` on the extended reals, accumulated into the zero matrix, read at the entry
  `(p, q)`: the sum over `k : Fin K` of `l (p, k) · r (k, q)`.

  The library states a `tpu.matmul` at an output index as a sum over the contraction shape's index set, with the
  operands read at `lhsIdx` / `rhsIdx`; for the dimension numbers `⟨[1], [0], [0], [1], [], []⟩` that index set is
  one axis of extent `K`, the left index is `(p, k)` and the right index is `(k, q)`. The statement takes any
  dimension record equal to `DotDims.plain M K N` (a record is determined by its six lists, so a printed one with these
  lists is equal to it by `rfl`).
-/
import Idealize.ShloMosaic.PureOps.Ideal.Laws
import Idealize.ShloMosaic.Lib.ValueIdx

noncomputable section

open scoped BigOperators

namespace Cert.LibPlainMatmul

open Idealize.ShloMosaic Idealize.ShloMosaic.ValueIdx

/-- The left operand's index of the plain product at output `(p, q)` and contraction coordinate `k` is `(p, k)`. -/
theorem plain_lhsIdx {M K N : ℕ} (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index there is `(k, q)`. -/
theorem plain_rhsIdx {M K N : ℕ} (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A plain `[M, K] · [K, N]` product into the zero accumulator, at `(p, q)`, is `∑ k, l (p, k) · r (k, q)`. -/
theorem matmul_plain_zero_apply {M K N : ℕ} {φ₁ φ₂ : FTy}
    (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (p : Fin M) (q : Fin N) :
    FloatOps.matmul D prec l r (constant ⟨2, ![M, N]⟩ .f32 0x00000000#32) (ix2 p q)
      = ∑ k : Fin K, l (ix2 p k) * r (ix2 k q) := by
  subst hD
  rw [Ideal.matmul_constant_zero_apply, ← Equiv.sum_comp (contrEquiv1 (DotDims.plain M K N) K rfl rfl).symm]
  refine Finset.sum_congr rfl fun k _ => ?_
  rw [plain_lhsIdx, plain_rhsIdx]

end Cert.LibPlainMatmul

end
-- ==== Proof.LibLayerForms.lean ====
/-
  One layer of a multilayer perceptron on the extended reals, as a vector unit spells it and as a host program spells it,
  and the rectifier between two layers.

  A layer takes a matrix `x : [M, K]`, a weight matrix `w : [K, N]` and a bias vector `b : [N]` to the matrix
  `x · w + b`, the bias added to every row: entry `(p, q)` is `(∑ k, x (p, k) · w (k, q)) + b q`. A vector unit forms the
  product by a matrix multiplication into a zero accumulator, lifts the bias to a `[1, N]` row by a shape cast and broadcasts
  that row over the `M` rows (`vec_layer`). A host program forms the product by a general dot product, lifts the bias
  to a `[1, N]` row by a broadcast along a new leading axis and broadcasts that row over the rows (`host_layer`). Both are
  the same array `dense x w b`. The rectifier `max v 0` is spelt with a scalar zero broadcast to the shape on the vector unit
  (`vec_relu`) and with a rank-0 zero constant broadcast to the shape on the host (`host_relu`).

  A layer's row `p` depends on row `p` of its operand only, and so does the rectifier's. `RowsAgree xb x off` says that
  `xb` is the block of rows `off, off + 1, …` of `x`; a layer and the rectifier send agreeing operands to agreeing results
  (`dense_rows`, `relu_rows`), so a perceptron evaluated on a block of rows is that block of rows of the perceptron
  evaluated on all rows.
-/
import proofs.«131369_j32332513804324_2_alg».proof.Proof.LibDenseLayer
import proofs.«131369_j32332513804324_2_alg».proof.Proof.LibPlainMatmul
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LayerForms

open Idealize.ShloMosaic Idealize.ShloMosaic.ValueIdx Cert.DenseLayer

/-- A bias vector as a function of the column. -/
def colBias {N : ℕ} (b : (⟨1, ![N]⟩ : Shape).Idx → EReal) : Fin N → EReal := fun q => b (ix1 q)

/-- The rectifier: every entry clamped below at zero. -/
def relu {S : Shape} (v : S.Idx → EReal) : S.Idx → EReal := fun i => max (v i) 0

/-- A plain `[M, K] · [K, N]` general dot product of a host program, at `(p, q)`, is `∑ k, l (p, k) · r (k, q)`. -/
theorem dotGeneral_plain_apply {M K N : ℕ} {φ₁ φ₂ : FTy}
    (D : DotDims ⟨2, ![M, K]⟩ ⟨2, ![K, N]⟩ ⟨2, ![M, N]⟩) (hD : D = DotDims.plain M K N)
    (prec : Option ContractPrecision) (sched : HostSchedule) (l : FVec Ideal ⟨2, ![M, K]⟩ φ₁) (r : FVec Ideal ⟨2, ![K, N]⟩ φ₂)
    (p : Fin M) (q : Fin N) :
    FloatOps.dotGeneral D prec sched l r (ix2 p q) = ∑ k : Fin K, l (ix2 p k) * r (ix2 k q) := by
  subst hD
  rw [Ideal.dotGeneral_apply, ← Equiv.sum_comp (contrEquiv1 (DotDims.plain M K N) K rfl rfl).symm]
  refine Finset.sum_congr rfl fun k _ => ?_
  rw [Cert.LibPlainMatmul.plain_lhsIdx, Cert.LibPlainMatmul.plain_rhsIdx]

/-- The layer as a vector unit spells it: the product into a zero accumulator, plus the bias cast to a row and
    broadcast over the rows. -/
theorem vec_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (hc : (⟨1, ![N]⟩ : Shape).ShapeCasts ⟨2, ![1, N]⟩)
    (hb : (⟨2, ![1, N]⟩ : Shape).Broadcasts ⟨2, ![M, N]⟩) :
    addf (matmul D prec x w (constant ⟨2, ![M, N]⟩ .f32 0x00000000#32))
        (broadcastTo ⟨2, ![M, N]⟩ (shapeCast ⟨2, ![1, N]⟩ b hc) hb)
      = dense x w (colBias b) := by
  funext i
  obtain ⟨p, q, rfl⟩ : ∃ (p : Fin M) (q : Fin N), i = ix2 p q := ⟨i 0, i 1, eq_ix2 i⟩
  show FloatOps.matmul D prec x w (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix1 q)
  rw [Cert.LibPlainMatmul.matmul_plain_zero_apply D hD, broadcastTo_1b_ab_apply, shapeCast_a_1a_apply]

/-- The layer as a host program spells it: the general dot product, plus the bias broadcast to a row along a new leading
    axis and that row broadcast over the rows. -/
theorem host_layer {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) := by
  funext i
  obtain ⟨p, q, rfl⟩ : ∃ (p : Fin M) (q : Fin N), i = ix2 p q := ⟨i 0, i 1, eq_ix2 i⟩
  show FloatOps.dotGeneral D prec .single x w (ix2 p q)
      + broadcastInDim ⟨2, ![M, N]⟩ ![0, 1] h2 (broadcastInDim ⟨2, ![1, N]⟩ ![1] h1 b) (ix2 p q)
    = (∑ k : Fin K, x (ix2 p k) * w (ix2 k q)) + b (ix1 q)
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ =>
      show q.val = if N = 1 then 0 else q.val
      split
      · have := q.isLt; omega
      · rfl
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ =>
      show q.val = if N = 1 then 0 else q.val
      split
      · have := q.isLt; omega
      · rfl
  rw [dotGeneral_plain_apply D hD, e2, e1]

/-- The rectifier as a vector unit spells it: the maximum with a scalar zero broadcast to the shape. -/
theorem vec_relu {S : Shape} (v : FVec Ideal S .f32) :
    maximumf v (broadcast S (Scalar.ofBits (F := Ideal) .f32 0x00000000#32)) = relu v := by
  funext i
  show max (v i) (Ideal.ofBits .f32 0x00000000#32) = max (v i) 0
  rw [Ideal.ofBits_zero_f32]

/-- The rectifier as a host program spells it: the maximum with a rank-0 zero constant broadcast to the shape. -/
theorem host_relu {S : Shape} (v : FVec Ideal S .f32) (h : (⟨0, ![]⟩ : Shape).BroadcastsInDim S ![]) :
    maximumf v (broadcastInDim S ![] h (constant (F := Ideal) ⟨0, ![]⟩ .f32 0x00000000#32)) = relu v := by
  funext i
  show max (v i) (Ideal.ofBits .f32 0x00000000#32) = max (v i) 0
  rw [Ideal.ofBits_zero_f32]

/-! ## Blocks of rows -/

/-- `xb` is the block of rows `off, off + 1, …` of `x`. -/
def RowsAgree {m M K : ℕ} (xb : (⟨2, ![m, K]⟩ : Shape).Idx → EReal) (x : (⟨2, ![M, K]⟩ : Shape).Idx → EReal) (off : ℕ) : Prop :=
  ∀ (p : Fin m) (P : Fin M), P.val = off + p.val → ∀ k : Fin K, xb (ix2 p k) = x (ix2 P k)

/-- A layer on a block of rows is that block of rows of the layer. -/
theorem dense_rows {m M K N : ℕ} {xb : (⟨2, ![m, K]⟩ : Shape).Idx → EReal} {x : (⟨2, ![M, K]⟩ : Shape).Idx → EReal} {off : ℕ}
    (h : RowsAgree xb x off) (w : (⟨2, ![K, N]⟩ : Shape).Idx → EReal) (b : Fin N → EReal) :
    RowsAgree (dense xb w b) (dense x w b) off :=
  fun p P hP q => by
    rw [dense_ix2, dense_ix2]
    exact denseAt_rows x xb w b p P q (h p P hP)

/-- The rectifier on a block of rows is that block of rows of the rectifier. -/
theorem relu_rows {m M K : ℕ} {xb : (⟨2, ![m, K]⟩ : Shape).Idx → EReal} {x : (⟨2, ![M, K]⟩ : Shape).Idx → EReal} {off : ℕ}
    (h : RowsAgree xb x off) : RowsAgree (relu xb) (relu x) off :=
  fun p P hP k => by
    show max (xb (ix2 p k)) 0 = max (x (ix2 P k)) 0
    rw [h p P hP k]

end Cert.LayerForms

end
-- ==== Proof.LibRowBias.lean ====
/-
  The two dense steps of a graph-convolution layer on the extended reals, in the spellings a vector unit and a host
  program give them.

  `dense x w b` is `x · w + b` with the bias `b` a function of the column. A vector unit that is handed the bias as
  a `[1, N]` row forms it as a matrix product into a zero accumulator plus the row broadcast over the rows
  (`vec_dense_row`); its two product operands may first have passed through changes of float format or of layout that
  leave every entry as it was, so the lemma takes operands that agree with `x` and `w` entry by entry. The host program
  forms the product by a general dot product and adds the bias vector broadcast over the rows (`host_dense`); with
  the zero row for a bias the layer is the bare product (`dense_zero_row`: `s + 0 = s` on the extended reals).

  `reluB a b` is `max (a + b) 0`, the bias added to every row and the rectifier applied, again in both spellings
  (`vec_reluB`, `host_reluB`). A `[1, N]` row that is a bias vector reshaped is, as a function of the column, that vector
  (`rowOf_cast`).
-/
import proofs.«131369_j32332513804324_2_alg».proof.Proof.LibDenseLayer
import proofs.«131369_j32332513804324_2_alg».proof.Proof.LibPlainMatmul
import proofs.«131369_j32332513804324_2_alg».proof.Proof.LibLayerForms
import Idealize.ShloMosaic.PureOps.Ideal.Laws
import Idealize.ShloMosaic.Lib.Pipeline.Value
import Idealize.ShloMosaic.Lib.ValueIdx
import Idealize.ShloMosaic.Lib.ValueLayout

noncomputable section

open scoped BigOperators

namespace Cert.LibRowBias

open Idealize.ShloMosaic Idealize.ShloMosaic.ValueIdx Cert.DenseLayer Cert.LayerForms

/-- A `[1, N]` row as a function of the column. -/
def rowOf {N : ℕ} (b : (⟨2, ![1, N]⟩ : Shape).Idx → EReal) : Fin N → EReal := fun q => b (ix2 (0 : Fin 1) q)

/-- A bias added to every row, then the rectifier: entry `(p, q)` is `max (a (p, q) + b q) 0`. -/
def reluB {M N : ℕ} (a : (⟨2, ![M, N]⟩ : Shape).Idx → EReal) (b : Fin N → EReal) : (⟨2, ![M, N]⟩ : Shape).Idx → EReal :=
  fun i => max (a i + b (i 1)) 0

theorem reluB_ix2 {M N : ℕ} (a : (⟨2, ![M, N]⟩ : Shape).Idx → EReal) (b : Fin N → EReal) (p : Fin M) (q : Fin N) :
    reluB a b (ix2 p q) = max (a (ix2 p q) + b q) 0 := rfl

/-- An entry of a dense layer on a block of rows, a copy of the weights and a copy of the bias is the entry of the dense
    layer on the whole arrays in the row the block's row came from: the entry depends on that one row of the operand, on
    one column of the weights and on one entry of the bias. -/
theorem dense_block_apply {m M K N : ℕ} (xb : (⟨2, ![m, K]⟩ : Shape).Idx → EReal) (x : (⟨2, ![M, K]⟩ : Shape).Idx → EReal)
    (wb w : (⟨2, ![K, N]⟩ : Shape).Idx → EReal) (bb b : Fin N → EReal) (p : Fin m) (P : Fin M) (q : Fin N)
    (hx : ∀ k : Fin K, xb (ix2 p k) = x (ix2 P k)) (hw : ∀ k : Fin K, wb (ix2 k q) = w (ix2 k q)) (hb : bb q = b q) :
    dense xb wb bb (ix2 p q) = dense x w b (ix2 P q) := by
  show (∑ k : Fin K, xb (ix2 p k) * wb (ix2 k q)) + bb q = (∑ k : Fin K, x (ix2 P k) * w (ix2 k q)) + b q
  rw [hb]
  exact congrArg (· + b q) (Finset.sum_congr rfl fun k _ => by rw [hx, hw])

/-- The same for the bias-and-rectifier step: its entry `(p, q)` depends on entry `(p, q)` of the operand and on the bias
    at `q` only. -/
theorem reluB_block_apply {m M N : ℕ} (ab : (⟨2, ![m, N]⟩ : Shape).Idx → EReal) (a : (⟨2, ![M, N]⟩ : Shape).Idx → EReal)
    (bb b : Fin N → EReal) (p : Fin m) (P : Fin M) (q : Fin N)
    (ha : ab (ix2 p q) = a (ix2 P q)) (hb : bb q = b q) :
    reluB ab bb (ix2 p q) = reluB a b (ix2 P q) := by
  show max (ab (ix2 p q) + bb q) 0 = max (a (ix2 P q) + b q) 0
  rw [ha, hb]

/-- A bias vector reshaped to a `[1, N]` row is, column by column, the vector. -/
theorem rowOf_cast {N : ℕ} (b : FVec Ideal ⟨1, ![N]⟩ .f32) (hc : (⟨1, ![N]⟩ : Shape).ShapeCasts ⟨2, ![1, N]⟩) :
    rowOf (shapeCast ⟨2, ![1, N]⟩ b hc) = colBias b := by
  funext q
  show shapeCast ⟨2, ![1, N]⟩ b hc (ix2 (0 : Fin 1) q) = b (ix1 q)
  rw [shapeCast_a_1a_apply]

/-- The layer as a vector unit spells it, the bias a `[1, N]` row, the product's operands any arrays that agree entry by
    entry with `x` and `w`. -/
theorem vec_dense_row {M K N : ℕ} (D : DotDims ⟨2, ![M, K]⟩ ⟨2, ![K, N]⟩ ⟨2, ![M, N]⟩) (hD : D = DotDims.plain M K N)
    (prec : Option ContractPrecision) {φ₁ φ₂ : FTy} (x' : FVec Ideal ⟨2, ![M, K]⟩ φ₁) (w' : FVec Ideal ⟨2, ![K, N]⟩ φ₂)
    (x : (⟨2, ![M, K]⟩ : Shape).Idx → EReal) (w : (⟨2, ![K, N]⟩ : Shape).Idx → EReal)
    (hx : ∀ i, x' i = x i) (hw : ∀ i, w' i = w i)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) :
    addf (matmul D prec x' w' (constant ⟨2, ![M, N]⟩ .f32 0x00000000#32))
        (broadcastTo ⟨2, ![M, N]⟩ (shapeCast ⟨2, ![1, N]⟩ b hc) hb)
      = dense x w (rowOf b) := by
  funext i
  obtain ⟨p, q, rfl⟩ : ∃ (p : Fin M) (q : Fin N), i = ix2 p q := ⟨i 0, i 1, eq_ix2 i⟩
  show FloatOps.matmul D prec x' w' (constant ⟨2, ![M, N]⟩ .f32 0x00000000#32) (ix2 p q)
      + broadcastTo ⟨2, ![M, N]⟩ (shapeCast ⟨2, ![1, N]⟩ b hc) hb (ix2 p q)
    = (∑ k : Fin K, x (ix2 p k) * w (ix2 k q)) + b (ix2 (0 : Fin 1) q)
  rw [Cert.LibPlainMatmul.matmul_plain_zero_apply D hD, broadcastTo_1b_ab_apply, shapeCast_self]
  exact congrArg (· + b (ix2 (0 : Fin 1) q)) (Finset.sum_congr rfl fun k _ => by rw [hx, hw])

/-- The bias row and the rectifier as a vector unit spells them. -/
theorem vec_reluB {M N : ℕ} (a : FVec Ideal ⟨2, ![M, N]⟩ .f32) (b : FVec Ideal ⟨2, ![1, N]⟩ .f32)
    (hs : (⟨2, ![M, N]⟩ : Shape).ShapeCasts ⟨2, ![M, N]⟩) (hc : (⟨2, ![1, N]⟩ : Shape).ShapeCasts ⟨2, ![1, N]⟩)
    (hb : (⟨2, ![1, N]⟩ : Shape).Broadcasts ⟨2, ![M, N]⟩) :
    maximumf (addf (shapeCast ⟨2, ![M, N]⟩ a hs) (broadcastTo ⟨2, ![M, N]⟩ (shapeCast ⟨2, ![1, N]⟩ b hc) hb))
        (broadcast ⟨2, ![M, N]⟩ (Scalar.ofBits (F := Ideal) .f32 0x00000000#32))
      = reluB a (rowOf b) := by
  funext i
  obtain ⟨p, q, rfl⟩ : ∃ (p : Fin M) (q : Fin N), i = ix2 p q := ⟨i 0, i 1, eq_ix2 i⟩
  show max (shapeCast ⟨2, ![M, N]⟩ a hs (ix2 p q) + broadcastTo ⟨2, ![M, N]⟩ (shapeCast ⟨2, ![1, N]⟩ b hc) hb (ix2 p q))
      (Ideal.ofBits .f32 0x00000000#32) = max (a (ix2 p q) + b (ix2 (0 : Fin 1) q)) 0
  rw [shapeCast_self, broadcastTo_1b_ab_apply, shapeCast_self, Ideal.ofBits_zero_f32]

/-- The layer as a host program spells it: `dense` of the bias vector. -/
theorem host_dense {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨1, ![N]⟩ .f32) (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral D prec x w)
        (broadcastInDim ⟨2, ![M, N]⟩ ![0, 1] h2 (broadcastInDim ⟨2, ![1, N]⟩ ![1] h1 b))
      = dense x w (colBias b) :=
  host_layer D hD prec x w b h1 h2

/-- With the zero row for a bias the layer is the bare product, which is the host's general dot product. -/
theorem dense_zero_row {M K N : ℕ} (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (h0 : (⟨0, ![]⟩ : Shape).BroadcastsInDim ⟨2, ![1, N]⟩ ![]) :
    dense x w (rowOf (broadcastInDim ⟨2, ![1, N]⟩ ![] h0 (constant (F := Ideal) ⟨0, ![]⟩ .f32 0x00000000#32)))
      = Host.dotGeneral D prec x w := by
  funext i
  obtain ⟨p, q, rfl⟩ : ∃ (p : Fin M) (q : Fin N), i = ix2 p q := ⟨i 0, i 1, eq_ix2 i⟩
  show (∑ k : Fin K, x (ix2 p k) * w (ix2 k q)) + Ideal.ofBits .f32 0x00000000#32
    = FloatOps.dotGeneral D prec .single x w (ix2 p q)
  rw [dotGeneral_plain_apply D hD, Ideal.ofBits_zero_f32, add_zero]

/-- A bias vector broadcast to a row along a new leading axis and that row broadcast over the rows, at `(p, q)`, is the
    vector at `q`. -/
theorem bcast_rows_apply {M N : ℕ} (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : q.val = if N = 1 then 0 else q.val := by
    split
    · have := q.isLt; omega
    · rfl
  have e2 : broadcastInDim ⟨2, ![M, N]⟩ ![0, 1] h2 (broadcastInDim ⟨2, ![1, N]⟩ ![1] h1 b) (ix2 p q)
      = broadcastInDim ⟨2, ![1, N]⟩ ![1] h1 b (ix2 (0 : Fin 1) q) := by
    refine broadcastInDim_apply ![0, 1] h2 _ (ix2 p q) (ix2 (0 : Fin 1) q) fun a => ?_
    match a with
    | ⟨0, _⟩ => rfl
    | ⟨1, _⟩ => exact hq
  have e1 : broadcastInDim ⟨2, ![1, N]⟩ ![1] h1 b (ix2 (0 : Fin 1) q) = b (ix1 q) := by
    refine broadcastInDim_apply ![1] h1 b (ix2 (0 : Fin 1) q) (ix1 q) fun a => ?_
    match a with
    | ⟨0, _⟩ => exact hq
  rw [e2, e1]

/-- The bias and the rectifier as a host program spells them. -/
theorem host_reluB {M N : ℕ} (a : FVec Ideal ⟨2, ![M, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![]) :
    maximumf (addf a (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32))
      = reluB a (colBias b) := by
  funext i
  obtain ⟨p, q, rfl⟩ : ∃ (p : Fin M) (q : Fin N), i = ix2 p q := ⟨i 0, i 1, eq_ix2 i⟩
  show max (a (ix2 p q) + broadcastInDim ⟨2, ![M, N]⟩ ![0, 1] h2 (broadcastInDim ⟨2, ![1, N]⟩ ![1] h1 b) (ix2 p q))
      (Ideal.ofBits .f32 0x00000000#32) = max (a (ix2 p q) + b (ix1 q)) 0
  rw [bcast_rows_apply, Ideal.ofBits_zero_f32]

end Cert.LibRowBias

end
-- ==== Proof.GinSpec.lean ====
/-
  A graph isomorphism network on the extended reals, as one function of its arrays.

  One layer takes the node features `h : [M, K]` and the neighbour sums `a : [M, K]` to
  `max ((max ((h + a) · w1 + b1) 0) · w2 + b2) 0 + h`: two dense layers, each followed by the rectifier, and the
  layer's input added back (`mlp`). Row `p` of the result depends on row `p` of `h` and of `a` only, so the layer
  evaluated on a block of consecutive rows is that block of rows of the layer (`mlp_rows`).

  The network (`net`) is an input projection `x · w + b`, three such layers — the neighbour sums of each a function
  `agg` of that layer's input — and a read-out `tail` of the last layer's features. The neighbour aggregation and the
  read-out are parameters: the two programs compared spell them with the same operations, and nothing here opens them.
-/
import proofs.«131369_j32332513804324_2_alg».proof.Proof.LibDenseLayer
import proofs.«131369_j32332513804324_2_alg».proof.Proof.LibPlainMatmul
import proofs.«131369_j32332513804324_2_alg».proof.Proof.LibLayerForms
import proofs.«131369_j32332513804324_2_alg».proof.Proof.LibRowBias
import Idealize.ShloMosaic.Lib.ValueIdx

noncomputable section

open scoped BigOperators

namespace Cert.Gin

open Idealize.ShloMosaic Idealize.ShloMosaic.ValueIdx Cert.DenseLayer Cert.LayerForms Cert.LibRowBias

/-- An `M × N` array of extended reals. -/
abbrev Mat (M N : ℕ) : Type := (⟨2, ![M, N]⟩ : Shape).Idx → EReal

/-- One layer: `max ((max ((h + a) · w1 + b1) 0) · w2 + b2) 0 + h`. -/
def mlp {M K : ℕ} (h a : Mat M K) (w1 : Mat K K) (b1 : Fin K → EReal) (w2 : Mat K K) (b2 : Fin K → EReal) : Mat M K :=
  fun i => relu (dense (relu (dense (fun j => h j + a j) w1 b1)) w2 b2) i + h i

/-- The layer on a block of rows of `h` and of `a` is that block of rows of the layer. -/
theorem mlp_rows {m M K : ℕ} {xb ab : Mat m K} {h a : Mat M K} {off : ℕ}
    (hx : RowsAgree xb h off) (ha : RowsAgree ab a off)
    (w1 : Mat K K) (b1 : Fin K → EReal) (w2 : Mat K K) (b2 : Fin K → EReal) :
    RowsAgree (mlp xb ab w1 b1 w2 b2) (mlp h a w1 b1 w2 b2) off := by
  have hs : RowsAgree (fun j => xb j + ab j) (fun j => h j + a j) off := fun p P hP k => by
    show xb (ix2 p k) + ab (ix2 p k) = h (ix2 P k) + a (ix2 P k)
    rw [hx p P hP k, ha p P hP k]
  have h4 := relu_rows (dense_rows (relu_rows (dense_rows hs w1 b1)) w2 b2)
  intro p P hP k
  show relu (dense (relu (dense (fun j => xb j + ab j) w1 b1)) w2 b2) (ix2 p k) + xb (ix2 p k)
    = relu (dense (relu (dense (fun j => h j + a j) w1 b1)) w2 b2) (ix2 P k) + h (ix2 P k)
  rw [h4 p P hP k, hx p P hP k]

/-- The network: projection, three layers whose neighbour sums are `agg` of the layer's input, read-out. -/
def net {N I K G L : ℕ} (x : Mat N I) (win : Mat I K) (bin : Fin K → EReal)
    (w1a : Mat K K) (b1a : Fin K → EReal) (w2a : Mat K K) (b2a : Fin K → EReal)
    (w1b : Mat K K) (b1b : Fin K → EReal) (w2b : Mat K K) (b2b : Fin K → EReal)
    (w1c : Mat K K) (b1c : Fin K → EReal) (w2c : Mat K K) (b2c : Fin K → EReal)
    (agg : Mat N K → Mat N K) (tail : Mat N K → Mat G L) : Mat G L :=
  let h0 := dense x win bin
  let h1 := mlp h0 (agg h0) w1a b1a w2a b2a
  let h2 := mlp h1 (agg h1) w1b b1b w2b b2b
  let h3 := mlp h2 (agg h2) w1c b1c w2c b2c
  tail h3

end Cert.Gin

end
-- ==== Proof.KernelPay.lean ====
/-
  What each kernel body stores, on the extended reals.

  The projection body stores `x · w + b` of its block of rows of `x`, the weights and the bias row: a matrix product
  into a zero accumulator plus the row broadcast over the block's rows. A layer body stores the layer `mlp` of its block
  of features, its block of neighbour sums, two weight matrices and two bias rows: two such products, each followed by
  the maximum with zero, and the features block added back. Each body stores its value twice, once in a narrower float
  format; on the extended reals a change of format is the identity, so both stores hold the same function.
-/
import proofs.«131369_j32332513804324_2_alg».proof.Proof.Gen.KernelIdeal.Skeleton
import proofs.«131369_j32332513804324_2_alg».proof.Proof.GinSpec
import Idealize.ShloMosaic.PureOps.Ideal.Laws
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx
open Cert.DenseLayer Cert.LayerForms Cert.LibRowBias Cert.Gin

/-- The projection body's stored value is `x · w + b` of its loaded blocks, the bias a `[1, 64]` row. -/
theorem pay0 (x0 : Vec Ideal S5000x32 .f32) (x1 : Vec Ideal S32x64 .f32) (x2 : Vec Ideal S1x64 .f32) :
    k0_pay1 (F := Ideal) x0 x1 x2 = dense x0 x1 (rowOf x2) := by
  unfold k0_pay1
  exact vec_dense_row dot_S5000x32_S32x64_S5000x64_1_0_0_1_n_n rfl none _ _ x0 x1 (fun _ => rfl) (fun _ => rfl) x2
    shapeCasts_S1x64_S1x64 broadcasts_S1x64_S5000x64

/-- The same value stored in the narrower float format. -/
theorem pay0b (x0 : Vec Ideal S5000x32 .f32) (x1 : Vec Ideal S32x64 .f32) (x2 : Vec Ideal S1x64 .f32) :
    k0_pay2 (F := Ideal) x0 x1 x2 = dense x0 x1 (rowOf x2) := pay0 x0 x1 x2

/-- The layer body of region 1: its stored value, as a function of the six loaded blocks, is the layer `mlp` of the
    features block, the neighbour-sum block, the two weight matrices and the two bias rows. -/
theorem pay1 (x0 x1 : Vec Ideal S5000x64 .f32) (x2 : Vec Ideal S64x64 .f32) (x3 : Vec Ideal S1x64 .f32)
    (x4 : Vec Ideal S64x64 .f32) (x5 : Vec Ideal S1x64 .f32) :
    k1_pay1 (F := Ideal) x0 x1 x2 x3 x4 x5 = mlp x0 x1 x2 (rowOf x3) x4 (rowOf x5) := by
  unfold k1_pay1
  dsimp only
  have e1 := vec_dense_row dot_S5000x64_S64x64_S5000x64_1_0_0_1_n_n rfl none
      (truncf (F := Ideal) .bf16 (addf (shapeCast S5000x64 x0 shapeCasts_S5000x64_S5000x64)
        (shapeCast S5000x64 x1 shapeCasts_S5000x64_S5000x64)) bitsLt_bf16_f32)
      (truncf (F := Ideal) .bf16 (shapeCast S64x64 x2 shapeCasts_S64x64_S64x64) bitsLt_bf16_f32)
      (fun j => x0 j + x1 j) x2
      (fun i => by
        show shapeCast S5000x64 x0 shapeCasts_S5000x64_S5000x64 i + shapeCast S5000x64 x1 shapeCasts_S5000x64_S5000x64 i
          = x0 i + x1 i
        rw [shapeCast_self, shapeCast_self])
      (fun i => by
        show shapeCast S64x64 x2 shapeCasts_S64x64_S64x64 i = x2 i
        rw [shapeCast_self])
      x3 shapeCasts_S1x64_S1x64 broadcasts_S1x64_S5000x64
  rw [e1, vec_relu (dense (fun j => x0 j + x1 j) x2 (rowOf x3))]
  have e3 := vec_dense_row dot_S5000x64_S64x64_S5000x64_1_0_0_1_n_n rfl none
      (truncf (F := Ideal) .bf16 (relu (dense (fun j => x0 j + x1 j) x2 (rowOf x3))) bitsLt_bf16_f32)
      (truncf (F := Ideal) .bf16 (shapeCast S64x64 x4 shapeCasts_S64x64_S64x64) bitsLt_bf16_f32)
      (relu (dense (fun j => x0 j + x1 j) x2 (rowOf x3))) x4
      (fun _ => rfl)
      (fun i => by
        show shapeCast S64x64 x4 shapeCasts_S64x64_S64x64 i = x4 i
        rw [shapeCast_self])
      x5 shapeCasts_S1x64_S1x64 broadcasts_S1x64_S5000x64
  rw [e3, vec_relu, shapeCast_self]
  rfl

/-- The same value stored in the narrower float format: a change of format is the identity on the extended reals. -/
theorem pay1b (x0 x1 : Vec Ideal S5000x64 .f32) (x2 : Vec Ideal S64x64 .f32) (x3 : Vec Ideal S1x64 .f32)
    (x4 : Vec Ideal S64x64 .f32) (x5 : Vec Ideal S1x64 .f32) :
    k1_pay2 (F := Ideal) x0 x1 x2 x3 x4 x5 = mlp x0 x1 x2 (rowOf x3) x4 (rowOf x5) := pay1 x0 x1 x2 x3 x4 x5

/-- The layer body of region 2: its stored value, as a function of the six loaded blocks, is the layer `mlp` of the
    features block, the neighbour-sum block, the two weight matrices and the two bias rows. -/
theorem pay2 (x0 x1 : Vec Ideal S5000x64 .f32) (x2 : Vec Ideal S64x64 .f32) (x3 : Vec Ideal S1x64 .f32)
    (x4 : Vec Ideal S64x64 .f32) (x5 : Vec Ideal S1x64 .f32) :
    k2_pay1 (F := Ideal) x0 x1 x2 x3 x4 x5 = mlp x0 x1 x2 (rowOf x3) x4 (rowOf x5) := by
  unfold k2_pay1
  dsimp only
  have e1 := vec_dense_row dot_S5000x64_S64x64_S5000x64_1_0_0_1_n_n rfl none
      (truncf (F := Ideal) .bf16 (addf (shapeCast S5000x64 x0 shapeCasts_S5000x64_S5000x64)
        (shapeCast S5000x64 x1 shapeCasts_S5000x64_S5000x64)) bitsLt_bf16_f32)
      (truncf (F := Ideal) .bf16 (shapeCast S64x64 x2 shapeCasts_S64x64_S64x64) bitsLt_bf16_f32)
      (fun j => x0 j + x1 j) x2
      (fun i => by
        show shapeCast S5000x64 x0 shapeCasts_S5000x64_S5000x64 i + shapeCast S5000x64 x1 shapeCasts_S5000x64_S5000x64 i
          = x0 i + x1 i
        rw [shapeCast_self, shapeCast_self])
      (fun i => by
        show shapeCast S64x64 x2 shapeCasts_S64x64_S64x64 i = x2 i
        rw [shapeCast_self])
      x3 shapeCasts_S1x64_S1x64 broadcasts_S1x64_S5000x64
  rw [e1, vec_relu (dense (fun j => x0 j + x1 j) x2 (rowOf x3))]
  have e3 := vec_dense_row dot_S5000x64_S64x64_S5000x64_1_0_0_1_n_n rfl none
      (truncf (F := Ideal) .bf16 (relu (dense (fun j => x0 j + x1 j) x2 (rowOf x3))) bitsLt_bf16_f32)
      (truncf (F := Ideal) .bf16 (shapeCast S64x64 x4 shapeCasts_S64x64_S64x64) bitsLt_bf16_f32)
      (relu (dense (fun j => x0 j + x1 j) x2 (rowOf x3))) x4
      (fun _ => rfl)
      (fun i => by
        show shapeCast S64x64 x4 shapeCasts_S64x64_S64x64 i = x4 i
        rw [shapeCast_self])
      x5 shapeCasts_S1x64_S1x64 broadcasts_S1x64_S5000x64
  rw [e3, vec_relu, shapeCast_self]
  rfl

/-- The same value stored in the narrower float format: a change of format is the identity on the extended reals. -/
theorem pay2b (x0 x1 : Vec Ideal S5000x64 .f32) (x2 : Vec Ideal S64x64 .f32) (x3 : Vec Ideal S1x64 .f32)
    (x4 : Vec Ideal S64x64 .f32) (x5 : Vec Ideal S1x64 .f32) :
    k2_pay2 (F := Ideal) x0 x1 x2 x3 x4 x5 = mlp x0 x1 x2 (rowOf x3) x4 (rowOf x5) := pay2 x0 x1 x2 x3 x4 x5

/-- The layer body of region 3: its stored value, as a function of the six loaded blocks, is the layer `mlp` of the
    features block, the neighbour-sum block, the two weight matrices and the two bias rows. -/
theorem pay3 (x0 x1 : Vec Ideal S5000x64 .f32) (x2 : Vec Ideal S64x64 .f32) (x3 : Vec Ideal S1x64 .f32)
    (x4 : Vec Ideal S64x64 .f32) (x5 : Vec Ideal S1x64 .f32) :
    k3_pay1 (F := Ideal) x0 x1 x2 x3 x4 x5 = mlp x0 x1 x2 (rowOf x3) x4 (rowOf x5) := by
  unfold k3_pay1
  dsimp only
  have e1 := vec_dense_row dot_S5000x64_S64x64_S5000x64_1_0_0_1_n_n rfl none
      (truncf (F := Ideal) .bf16 (addf (shapeCast S5000x64 x0 shapeCasts_S5000x64_S5000x64)
        (shapeCast S5000x64 x1 shapeCasts_S5000x64_S5000x64)) bitsLt_bf16_f32)
      (truncf (F := Ideal) .bf16 (shapeCast S64x64 x2 shapeCasts_S64x64_S64x64) bitsLt_bf16_f32)
      (fun j => x0 j + x1 j) x2
      (fun i => by
        show shapeCast S5000x64 x0 shapeCasts_S5000x64_S5000x64 i + shapeCast S5000x64 x1 shapeCasts_S5000x64_S5000x64 i
          = x0 i + x1 i
        rw [shapeCast_self, shapeCast_self])
      (fun i => by
        show shapeCast S64x64 x2 shapeCasts_S64x64_S64x64 i = x2 i
        rw [shapeCast_self])
      x3 shapeCasts_S1x64_S1x64 broadcasts_S1x64_S5000x64
  rw [e1, vec_relu (dense (fun j => x0 j + x1 j) x2 (rowOf x3))]
  have e3 := vec_dense_row dot_S5000x64_S64x64_S5000x64_1_0_0_1_n_n rfl none
      (truncf (F := Ideal) .bf16 (relu (dense (fun j => x0 j + x1 j) x2 (rowOf x3))) bitsLt_bf16_f32)
      (truncf (F := Ideal) .bf16 (shapeCast S64x64 x4 shapeCasts_S64x64_S64x64) bitsLt_bf16_f32)
      (relu (dense (fun j => x0 j + x1 j) x2 (rowOf x3))) x4
      (fun _ => rfl)
      (fun i => by
        show shapeCast S64x64 x4 shapeCasts_S64x64_S64x64 i = x4 i
        rw [shapeCast_self])
      x5 shapeCasts_S1x64_S1x64 broadcasts_S1x64_S5000x64
  rw [e3, vec_relu, shapeCast_self]
  rfl

/-- The same value stored in the narrower float format: a change of format is the identity on the extended reals. -/
theorem pay3b (x0 x1 : Vec Ideal S5000x64 .f32) (x2 : Vec Ideal S64x64 .f32) (x3 : Vec Ideal S1x64 .f32)
    (x4 : Vec Ideal S64x64 .f32) (x5 : Vec Ideal S1x64 .f32) :
    k3_pay2 (F := Ideal) x0 x1 x2 x3 x4 x5 = mlp x0 x1 x2 (rowOf x3) x4 (rowOf x5) := pay3 x0 x1 x2 x3 x4 x5

end Cert.KernelIdeal.Pay

end
-- ==== Proof.KernelRegion0.lean ====
/-
  The projection region's two output arrays, as whole-array functions of the arrays the region is entered with.

  The region runs over 20 grid points. Point `t` reads rows `5000 t … 5000 t + 4999` of `x`, the whole weight matrix and the
  whole bias row, and writes rows `5000 t … 5000 t + 4999` of both outputs. An entry of `x · w + b` depends on one row
  of `x` only, so what point `t` writes is that block of rows of `x · w + b` of the whole arrays; the 20 blocks tile the
  100000 rows, so each output array ends holding `x · w + b`.
-/
import proofs.«131369_j32332513804324_2_alg».proof.Proof.Gen.KernelIdeal.Frame
import proofs.«131369_j32332513804324_2_alg».proof.Proof.KernelPay
import proofs.«131369_j32332513804324_2_alg».proof.Proof.GinSpec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.DenseLayer Cert.LayerForms Cert.LibRowBias Cert.Gin

/-- `x · w + b` on a block of rows of `x`, at an entry of the block, is `x · w + b` of the whole `x` at the entry
    `off` rows further down. -/
theorem dense_block {m M K N : ℕ} (x : Mat M K) (w : Mat K N) (b : Mat 1 N) (xb : Mat m K) (wb : Mat K N) (bb : Mat 1 N)
    (off : ℕ) (hx : RowsAgree xb x off) (hw : wb = w) (hb : bb = b)
    (j : (⟨2, ![m, N]⟩ : Shape).Idx) (J : (⟨2, ![M, N]⟩ : Shape).Idx)
    (h0 : (J 0).val = off + (j 0).val) (h1 : (J 1).val = (j 1).val) :
    dense xb wb (rowOf bb) j = dense x w (rowOf b) J := by
  subst hw hb
  have hj : j = ix2 (j 0) (j 1) := eq_ix2 j
  have hJ : J = ix2 (J 0) (j 1) := (eq_ix2 J).trans (congrArg (ix2 (J 0)) (Fin.ext h1))
  rw [hj, hJ]
  exact dense_rows hx wb (rowOf bb) (j 0) (J 0) h0 (j 1)

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the row windows are at block `(t, 0)`, the weights and the bias row at `(0, 0)`. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- The array both outputs end holding. -/
def G (c : Dev nD) : Mat 100000 64 := dense (V c main_arg0) (V c main_arg3) (rowOf (V c main_v4))

/-- Point `t`'s block of `x` is rows `5000 t …` of `x`. -/
theorem rows_x (c : Dev nD) (t : Fin cfg0.N) : RowsAgree (iblk0 V c 0 t) (V c main_arg0) (t.val * 5000) := by
  obtain ⟨e00, e01, -⟩ := idx_facts t
  intro p P hP k
  show V c main_arg0 (((cfg0.win 0).blk t).view.emb (ix2 p k)) = V c main_arg0 (ix2 P k)
  refine congrArg (V c main_arg0) (funext fun a => Fin.ext ?_)
  match a with
  | ⟨0, _⟩ => show win0_0.index t (0 : Fin 2) * 5000 + 1 * p.val = P.val; omega
  | ⟨1, _⟩ => show win0_0.index t (1 : Fin 2) * 32 + 1 * k.val = k.val; omega

/-- Point `t`'s block of the weights is the whole matrix. -/
theorem whole_w (c : Dev nD) (t : Fin cfg0.N) : iblk0 V c 1 t = V c main_arg3 := by
  obtain ⟨-, -, e10, e11, -⟩ := idx_facts t
  funext y
  show V c main_arg3 (((cfg0.win 1).blk t).view.emb y) = V c main_arg3 y
  refine congrArg (V c main_arg3) (funext fun a => Fin.ext ?_)
  match a with
  | ⟨0, _⟩ => show win0_1.index t (0 : Fin 2) * 32 + 1 * (y 0).val = (y 0).val; omega
  | ⟨1, _⟩ => show win0_1.index t (1 : Fin 2) * 64 + 1 * (y 1).val = (y 1).val; omega

/-- Point `t`'s block of the bias row is the whole row. -/
theorem whole_b (c : Dev nD) (t : Fin cfg0.N) : iblk0 V c 2 t = V c main_v4 := by
  obtain ⟨-, -, -, -, e20, e21, -⟩ := idx_facts t
  funext y
  show V c main_v4 (((cfg0.win 2).blk t).view.emb y) = V c main_v4 y
  refine congrArg (V c main_v4) (funext fun a => Fin.ext ?_)
  match a with
  | ⟨0, _⟩ => show win0_2.index t (0 : Fin 2) * 1 + 1 * (y 0).val = (y 0).val; omega
  | ⟨1, _⟩ => show win0_2.index t (1 : Fin 2) * 64 + 1 * (y 1).val = (y 1).val; omega

/-- What point `t` writes back to the first output is block `t` of `G`. -/
theorem flushed3_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S5000x32) hz, View.ld_unit_zero (S := S32x64) hz, View.ld_unit_zero (S := S1x64) hz]
  rw [pay0]
  obtain ⟨-, -, -, -, -, -, e30, e31, -⟩ := idx_facts t
  funext j
  show dense (iblk0 V c 0 t) (iblk0 V c 1 t) (rowOf (iblk0 V c 2 t)) j
    = dense (V c main_arg0) (V c main_arg3) (rowOf (V c main_v4)) (((cfg0.win 3).blk t).view.emb j)
  refine dense_block (V c main_arg0) (V c main_arg3) (V c main_v4) (iblk0 V c 0 t) (iblk0 V c 1 t) (iblk0 V c 2 t)
    (t.val * 5000) (rows_x V c t) (whole_w V c t) (whole_b V c t) j (((cfg0.win 3).blk t).view.emb j) ?_ ?_
  · show win0_3.index t (0 : Fin 2) * 5000 + 1 * (j 0).val = t.val * 5000 + (j 0).val; omega
  · show win0_3.index t (1 : Fin 2) * 64 + 1 * (j 1).val = (j 1).val; omega

/-- An index of the first output is in point `t`'s block iff each coordinate is in the block's range. -/
theorem mem_blk3 (t : Fin cfg0.N) (i : S100000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v5_0).slice (win0_3.rect t)).set ↔ _
  rw [View.set_slice_whole, Rect.mem_set_unit]
  exact Iff.rfl

/-- Every index of the first output is in some point's block: row `r` in point `r / 5000`'s. -/
theorem cover3 (i : S100000x64.Idx) : ∃ t : Fin cfg0.N, (cfg0.win 3).flush t = true ∧ i ∈ ((cfg0.win 3).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, e30, e31, -⟩ := idx_facts t
  have ht : t.val = (i 0).val / 5000 := rfl
  refine ⟨t, flush0_3 t, ?_⟩
  rw [mem_blk3]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The first output array after the region. -/
theorem final3 (c : Dev nD) : (dat0 V c).arrAt 3 cfg0.N = G V c :=
  (dat0 V c).arrAt_eq_of_cover 3 (G V c) (fun t _ => flushed3_eq V c t) cover3

/-- What point `t` writes back to the second output is block `t` of `G`. -/
theorem flushed4_eq (c : Dev nD) (t : Fin cfg0.N) :
    (dat0 V c).flushed 4 t = ((cfg0.win 4).blk t).view.read (Elt Ideal) (G V c) := by
  show (cfg0.win 4).cut (grid0.coords t) ((dat0 V c).after 4 t) = _
  rw [after0_4]
  unfold out0_4
  rw [View.canon_unit_zero hz]
  simp only [View.ld_unit_zero (S := S5000x32) hz, View.ld_unit_zero (S := S32x64) hz, View.ld_unit_zero (S := S1x64) hz]
  rw [pay0b]
  obtain ⟨-, -, -, -, -, -, -, -, e30, e31⟩ := idx_facts t
  funext j
  show dense (iblk0 V c 0 t) (iblk0 V c 1 t) (rowOf (iblk0 V c 2 t)) j
    = dense (V c main_arg0) (V c main_arg3) (rowOf (V c main_v4)) (((cfg0.win 4).blk t).view.emb j)
  refine dense_block (V c main_arg0) (V c main_arg3) (V c main_v4) (iblk0 V c 0 t) (iblk0 V c 1 t) (iblk0 V c 2 t)
    (t.val * 5000) (rows_x V c t) (whole_w V c t) (whole_b V c t) j (((cfg0.win 4).blk t).view.emb j) ?_ ?_
  · show win0_4.index t (0 : Fin 2) * 5000 + 1 * (j 0).val = t.val * 5000 + (j 0).val; omega
  · show win0_4.index t (1 : Fin 2) * 64 + 1 * (j 1).val = (j 1).val; omega

/-- An index of the second output is in point `t`'s block iff each coordinate is in the block's range. -/
theorem mem_blk4 (t : Fin cfg0.N) (i : S100000x64.Idx) :
    i ∈ ((cfg0.win 4).blk t).view.set ↔ ∀ a : Fin 2, win0_4.index t a * S5000x64.size a ≤ (i a).val ∧ (i a).val < win0_4.index t a * S5000x64.size a + S5000x64.size a := by
  show i ∈ ((View.whole main_v5_1).slice (win0_4.rect t)).set ↔ _
  rw [View.set_slice_whole, Rect.mem_set_unit]
  exact Iff.rfl

/-- Every index of the second output is in some point's block: row `r` in point `r / 5000`'s. -/
theorem cover4 (i : S100000x64.Idx) : ∃ t : Fin cfg0.N, (cfg0.win 4).flush t = true ∧ i ∈ ((cfg0.win 4).blk t).view.set := by
  have hi0 : (i 0).val < 100000 := (i 0).isLt
  have hi1 : (i 1).val < 64 := (i 1).isLt
  let t : Fin cfg0.N := ⟨(i 0).val / 5000, by show (i 0).val / 5000 < 20; omega⟩
  obtain ⟨-, -, -, -, -, -, -, -, e30, e31⟩ := idx_facts t
  have ht : t.val = (i 0).val / 5000 := rfl
  refine ⟨t, flush0_4 t, ?_⟩
  rw [mem_blk4]
  intro a
  match a with
  | ⟨0, _⟩ => show win0_4.index t (0 : Fin 2) * 5000 ≤ (i 0).val ∧ (i 0).val < win0_4.index t (0 : Fin 2) * 5000 + 5000; omega
  | ⟨1, _⟩ => show win0_4.index t (1 : Fin 2) * 64 ≤ (i 1).val ∧ (i 1).val < win0_4.index t (1 : Fin 2) * 64 + 64; omega

/-- The second output array after the region. -/
theorem final4 (c : Dev nD) : (dat0 V c).arrAt 4 cfg0.N = G V c :=
  (dat0 V c).arrAt_eq_of_cover 4 (G V c) (fun t _ => flushed4_eq V c t) cover4

end Cert.KernelIdeal.Region0

end
-- ==== Proof.GinBlocks.lean ====
/-
  A layer on a block of rows, entry by entry.

  An entry `(p, q)` of the layer `mlp h a w1 b1 w2 b2` depends on row `p` of the features `h` and of the neighbour sums `a`
  only. So the layer evaluated on a block of consecutive rows of `h` and of `a`, with copies of the weights and of the
  bias rows, agrees at every entry of the block with the layer of the whole arrays at the entry `off` rows further down.
-/
import proofs.«131369_j32332513804324_2_alg».proof.Proof.GinSpec
import Idealize.ShloMosaic.Lib.ValueIdx

noncomputable section

namespace Cert.Gin

open Idealize.ShloMosaic Idealize.ShloMosaic.ValueIdx Cert.DenseLayer Cert.LayerForms Cert.LibRowBias

/-- The layer on a block of rows, at an entry of the block, is the layer of the whole arrays at the entry `off` rows
    further down; the bias rows are `[1, K]` arrays read as functions of the column. -/
theorem mlp_block {m M K : ℕ} (h a : Mat M K) (w1 : Mat K K) (b1 : Mat 1 K) (w2 : Mat K K) (b2 : Mat 1 K)
    (xb ab : Mat m K) (w1b : Mat K K) (b1b : Mat 1 K) (w2b : Mat K K) (b2b : Mat 1 K) (off : ℕ)
    (hx : RowsAgree xb h off) (ha : RowsAgree ab a off)
    (hw1 : w1b = w1) (hb1 : b1b = b1) (hw2 : w2b = w2) (hb2 : b2b = b2)
    (j : (⟨2, ![m, K]⟩ : Shape).Idx) (J : (⟨2, ![M, K]⟩ : Shape).Idx)
    (h0 : (J 0).val = off + (j 0).val) (h1 : (J 1).val = (j 1).val) :
    mlp xb ab w1b (rowOf b1b) w2b (rowOf b2b) j = mlp h a w1 (rowOf b1) w2 (rowOf b2) J := by
  subst hw1 hb1 hw2 hb2
  have hj : j = ix2 (j 0) (j 1) := eq_ix2 j
  have hJ : J = ix2 (J 0) (j 1) := (eq_ix2 J).trans (congrArg (ix2 (J 0)) (Fin.ext h1))
  rw [hj, hJ]
  exact mlp_rows hx ha w1b (rowOf b1b) w2b (rowOf b2b) (j 0) (J 0) h0 (j 1)

end Cert.Gin

end
-- ==== Proof.KernelRegion1.lean ====
/-
  Layer region 1's two output arrays, as whole-array functions of the arrays the region is entered with.

  The region runs over 20 grid points. Point `t` reads rows `5000 t … 5000 t + 4999` of the features and of the neighbour
  sums, the two whole weight matrices and the two whole bias rows, and writes rows `5000 t … 5000 t + 4999` of both
  outputs. An entry of the layer depends on one row of the features and of the neighbour sums only, so what point `t`
  writes is that block of rows of the layer of the whole arrays; the 20 blocks tile the 100000 rows, so each output array
  ends holding the layer of the whole arrays.
-/
import proofs.«131369_j32332513804324_2_alg».proof.Proof.Gen.KernelIdeal.Frame
import proofs.«131369_j32332513804324_2_alg».proof.Proof.KernelPay
import proofs.«131369_j32332513804324_2_alg».proof.Proof.GinBlocks
import Idealize.ShloMosaic.Lib.Pipeline.Value
import Idealize.ShloMosaic.Lib.ValueIdx

set_option maxRecDepth 16384

noncomputable section

namespace Cert.KernelIdeal.Region1

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.DenseLayer Cert.LayerForms Cert.LibRowBias Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row windows are at block `(t, 0)`, the weights and the bias rows at
    `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0
    ∧ win1_7.index t (0 : Fin 2) = t.val ∧ win1_7.index t (1 : Fin 2) = 0 :=
  (by decide +kernel : ∀ t : Fin grid1.N, _)

/-- The array both outputs end holding: the layer of the entry contents of the six input arrays. -/
def G (c : Dev nD) : Mat 100000 64 :=
  mlp (V c main_v5_0) (V c main_v16) (V c main_v18) (rowOf (V c main_v25)) (V c main_v22) (rowOf (V c main_v26))

/-- Point `t`'s block of the features is rows `5000 t …` of it. -/
theorem rows_h (c : Dev nD) (t : Fin cfg1.N) : RowsAgree (iblk1 V c 0 t) (V c main_v5_0) (t.val * 5000) := by
  have e := idx_facts t
  intro p P hP q
  show V c main_v5_0 (((cfg1.win 0).blk t).view.emb (ix2 p q)) = V c main_v5_0 (ix2 P q)
  refine congrArg (V c main_v5_0) (funext fun a => Fin.ext ?_)
  match a with
  | ⟨0, _⟩ => show win1_0.index t (0 : Fin 2) * 5000 + 1 * p.val = P.val; omega
  | ⟨1, _⟩ => show win1_0.index t (1 : Fin 2) * 64 + 1 * q.val = q.val; omega

/-- Point `t`'s block of the neighbour sums is rows `5000 t …` of it. -/
theorem rows_a (c : Dev nD) (t : Fin cfg1.N) : RowsAgree (iblk1 V c 1 t) (V c main_v16) (t.val * 5000) := by
  have e := idx_facts t
  intro p P hP q
  show V c main_v16 (((cfg1.win 1).blk t).view.emb (ix2 p q)) = V c main_v16 (ix2 P q)
  refine congrArg (V c main_v16) (funext fun a => Fin.ext ?_)
  match a with
  | ⟨0, _⟩ => show win1_1.index t (0 : Fin 2) * 5000 + 1 * p.val = P.val; omega
  | ⟨1, _⟩ => show win1_1.index t (1 : Fin 2) * 64 + 1 * q.val = q.val; omega

/-- Point `t`'s block of the first weight matrix is the whole of it. -/
theorem whole_w1 (c : Dev nD) (t : Fin cfg1.N) : iblk1 V c 2 t = V c main_v18 := by
  have e := idx_facts t
  funext y
  show V c main_v18 (((cfg1.win 2).blk t).view.emb y) = V c main_v18 y
  refine congrArg (V c main_v18) (funext fun a => Fin.ext ?_)
  match a with
  | ⟨0, _⟩ => show win1_2.index t (0 : Fin 2) * 64 + 1 * (y 0).val = (y 0).val; omega
  | ⟨1, _⟩ => show win1_2.index t (1 : Fin 2) * 64 + 1 * (y 1).val = (y 1).val; omega

/-- Point `t`'s block of the first bias row is the whole of it. -/
theorem whole_b1 (c : Dev nD) (t : Fin cfg1.N) : iblk1 V c 3 t = V c main_v25 := by
  have e := idx_facts t
  funext y
  show V c main_v25 (((cfg1.win 3).blk t).view.emb y) = V c main_v25 y
  refine congrArg (V c main_v25) (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

/-- Point `t`'s block of the second weight matrix is the whole of it. -/
theorem whole_w2 (c : Dev nD) (t : Fin cfg1.N) : iblk1 V c 4 t = V c main_v22 := by
  have e := idx_facts t
  funext y
  show V c main_v22 (((cfg1.win 4).blk t).view.emb y) = V c main_v22 y
  refine congrArg (V c main_v22) (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Point `t`'s block of the second bias row is the whole of it. -/
theorem whole_b2 (c : Dev nD) (t : Fin cfg1.N) : iblk1 V c 5 t = V c main_v26 := by
  have e := idx_facts t
  funext y
  show V c main_v26 (((cfg1.win 5).blk t).view.emb y) = V c main_v26 y
  refine congrArg (V c main_v26) (funext fun a => Fin.ext ?_)
  match a with
  | ⟨0, _⟩ => show win1_5.index t (0 : Fin 2) * 1 + 1 * (y 0).val = (y 0).val; omega
  | ⟨1, _⟩ => show win1_5.index t (1 : Fin 2) * 64 + 1 * (y 1).val = (y 1).val; omega

/-- What point `t` writes back to the first output is block `t` of `G`. -/
theorem flushed6_eq (c : Dev nD) (t : Fin cfg1.N) :
    (dat1 V c).flushed 6 t = ((cfg1.win 6).blk t).view.read (Elt Ideal) (G V c) := by
  show (cfg1.win 6).cut (grid1.coords t) ((dat1 V c).after 6 t) = _
  rw [after1_6]
  unfold out1_6
  rw [View.canon_unit_zero hz]
  simp only [View.ld_unit_zero (S := S5000x64) hz, View.ld_unit_zero (S := S64x64) hz, View.ld_unit_zero (S := S1x64) hz]
  rw [pay1]
  have e := idx_facts t
  funext j
  show mlp (iblk1 V c 0 t) (iblk1 V c 1 t) (iblk1 V c 2 t) (rowOf (iblk1 V c 3 t)) (iblk1 V c 4 t) (rowOf (iblk1 V c 5 t)) j
    = mlp (V c main_v5_0) (V c main_v16) (V c main_v18) (rowOf (V c main_v25)) (V c main_v22) (rowOf (V c main_v26)) (((cfg1.win 6).blk t).view.emb j)
  refine mlp_block (V c main_v5_0) (V c main_v16) (V c main_v18) (V c main_v25) (V c main_v22) (V c main_v26)
    (iblk1 V c 0 t) (iblk1 V c 1 t) (iblk1 V c 2 t) (iblk1 V c 3 t) (iblk1 V c 4 t) (iblk1 V c 5 t)
    (t.val * 5000) (rows_h V c t) (rows_a V c t) (whole_w1 V c t) (whole_b1 V c t) (whole_w2 V c t) (whole_b2 V c t)
    j (((cfg1.win 6).blk t).view.emb j) ?_ ?_
  · show win1_6.index t (0 : Fin 2) * 5000 + 1 * (j 0).val = t.val * 5000 + (j 0).val; omega
  · show win1_6.index t (1 : Fin 2) * 64 + 1 * (j 1).val = (j 1).val; omega

/-- An index of the first output is in point `t`'s block iff each coordinate is in the block's range. -/
theorem mem_blk6 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v27_0).slice (win1_6.rect t)).set ↔ _
  rw [View.set_slice_whole, Rect.mem_set_unit]
  exact Iff.rfl

/-- Every index of the first output is in some point's block: row `r` in point `r / 5000`'s. -/
theorem cover6 (i : S100000x64.Idx) : ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 5000, by show (i 0).val / 5000 < 20; omega⟩
  have e := idx_facts t
  have ht : t.val = (i 0).val / 5000 := rfl
  refine ⟨t, flush1_6 t, ?_⟩
  rw [mem_blk6]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- The first output array after the region. -/
theorem final6 (c : Dev nD) : (dat1 V c).arrAt 6 cfg1.N = G V c :=
  (dat1 V c).arrAt_eq_of_cover 6 (G V c) (fun t _ => flushed6_eq V c t) cover6

/-- What point `t` writes back to the second output is block `t` of `G`. -/
theorem flushed7_eq (c : Dev nD) (t : Fin cfg1.N) :
    (dat1 V c).flushed 7 t = ((cfg1.win 7).blk t).view.read (Elt Ideal) (G V c) := by
  show (cfg1.win 7).cut (grid1.coords t) ((dat1 V c).after 7 t) = _
  rw [after1_7]
  unfold out1_7
  rw [View.canon_unit_zero hz]
  simp only [View.ld_unit_zero (S := S5000x64) hz, View.ld_unit_zero (S := S64x64) hz, View.ld_unit_zero (S := S1x64) hz]
  rw [pay1b]
  have e := idx_facts t
  funext j
  show mlp (iblk1 V c 0 t) (iblk1 V c 1 t) (iblk1 V c 2 t) (rowOf (iblk1 V c 3 t)) (iblk1 V c 4 t) (rowOf (iblk1 V c 5 t)) j
    = mlp (V c main_v5_0) (V c main_v16) (V c main_v18) (rowOf (V c main_v25)) (V c main_v22) (rowOf (V c main_v26)) (((cfg1.win 7).blk t).view.emb j)
  refine mlp_block (V c main_v5_0) (V c main_v16) (V c main_v18) (V c main_v25) (V c main_v22) (V c main_v26)
    (iblk1 V c 0 t) (iblk1 V c 1 t) (iblk1 V c 2 t) (iblk1 V c 3 t) (iblk1 V c 4 t) (iblk1 V c 5 t)
    (t.val * 5000) (rows_h V c t) (rows_a V c t) (whole_w1 V c t) (whole_b1 V c t) (whole_w2 V c t) (whole_b2 V c t)
    j (((cfg1.win 7).blk t).view.emb j) ?_ ?_
  · show win1_7.index t (0 : Fin 2) * 5000 + 1 * (j 0).val = t.val * 5000 + (j 0).val; omega
  · show win1_7.index t (1 : Fin 2) * 64 + 1 * (j 1).val = (j 1).val; omega

/-- An index of the second output is in point `t`'s block iff each coordinate is in the block's range. -/
theorem mem_blk7 (t : Fin cfg1.N) (i : S100000x64.Idx) :
    i ∈ ((cfg1.win 7).blk t).view.set ↔ ∀ a : Fin 2, win1_7.index t a * S5000x64.size a ≤ (i a).val ∧ (i a).val < win1_7.index t a * S5000x64.size a + S5000x64.size a := by
  show i ∈ ((View.whole main_v27_1).slice (win1_7.rect t)).set ↔ _
  rw [View.set_slice_whole, Rect.mem_set_unit]
  exact Iff.rfl

/-- Every index of the second output is in some point's block: row `r` in point `r / 5000`'s. -/
theorem cover7 (i : S100000x64.Idx) : ∃ t : Fin cfg1.N, (cfg1.win 7).flush t = true ∧ i ∈ ((cfg1.win 7).blk t).view.set := by
  have hi0 : (i 0).val < 100000 := (i 0).isLt
  have hi1 : (i 1).val < 64 := (i 1).isLt
  let t : Fin cfg1.N := ⟨(i 0).val / 5000, by show (i 0).val / 5000 < 20; omega⟩
  have e := idx_facts t
  have ht : t.val = (i 0).val / 5000 := rfl
  refine ⟨t, flush1_7 t, ?_⟩
  rw [mem_blk7]
  intro a
  match a with
  | ⟨0, _⟩ => show win1_7.index t (0 : Fin 2) * 5000 ≤ (i 0).val ∧ (i 0).val < win1_7.index t (0 : Fin 2) * 5000 + 5000; omega
  | ⟨1, _⟩ => show win1_7.index t (1 : Fin 2) * 64 ≤ (i 1).val ∧ (i 1).val < win1_7.index t (1 : Fin 2) * 64 + 64; omega

/-- The second output array after the region. -/
theorem final7 (c : Dev nD) : (dat1 V c).arrAt 7 cfg1.N = G V c :=
  (dat1 V c).arrAt_eq_of_cover 7 (G V c) (fun t _ => flushed7_eq V c t) cover7

end Cert.KernelIdeal.Region1

end
-- ==== Proof.KernelRegion2.lean ====
/-
  Layer region 2's two output arrays, as whole-array functions of the arrays the region is entered with.

  The region runs over 20 grid points. Point `t` reads rows `5000 t … 5000 t + 4999` of the features and of the neighbour
  sums, the two whole weight matrices and the two whole bias rows, and writes rows `5000 t … 5000 t + 4999` of both
  outputs. An entry of the layer depends on one row of the features and of the neighbour sums only, so what point `t`
  writes is that block of rows of the layer of the whole arrays; the 20 blocks tile the 100000 rows, so each output array
  ends holding the layer of the whole arrays.
-/
import proofs.«131369_j32332513804324_2_alg».proof.Proof.Gen.KernelIdeal.Frame
import proofs.«131369_j32332513804324_2_alg».proof.Proof.KernelPay
import proofs.«131369_j32332513804324_2_alg».proof.Proof.GinBlocks
import Idealize.ShloMosaic.Lib.Pipeline.Value
import Idealize.ShloMosaic.Lib.ValueIdx

set_option maxRecDepth 16384

noncomputable section

namespace Cert.KernelIdeal.Region2

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.DenseLayer Cert.LayerForms Cert.LibRowBias Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row windows are at block `(t, 0)`, the weights and the bias rows at
    `(0, 0)`. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0
    ∧ win2_7.index t (0 : Fin 2) = t.val ∧ win2_7.index t (1 : Fin 2) = 0 :=
  (by decide +kernel : ∀ t : Fin grid2.N, _)

/-- The array both outputs end holding: the layer of the entry contents of the six input arrays. -/
def G (c : Dev nD) : Mat 100000 64 :=
  mlp (V c main_v27_0) (V c main_v38) (V c main_v40) (rowOf (V c main_v47)) (V c main_v44) (rowOf (V c main_v48))

/-- Point `t`'s block of the features is rows `5000 t …` of it. -/
theorem rows_h (c : Dev nD) (t : Fin cfg2.N) : RowsAgree (iblk2 V c 0 t) (V c main_v27_0) (t.val * 5000) := by
  have e := idx_facts t
  intro p P hP q
  show V c main_v27_0 (((cfg2.win 0).blk t).view.emb (ix2 p q)) = V c main_v27_0 (ix2 P q)
  refine congrArg (V c main_v27_0) (funext fun a => Fin.ext ?_)
  match a with
  | ⟨0, _⟩ => show win2_0.index t (0 : Fin 2) * 5000 + 1 * p.val = P.val; omega
  | ⟨1, _⟩ => show win2_0.index t (1 : Fin 2) * 64 + 1 * q.val = q.val; omega

/-- Point `t`'s block of the neighbour sums is rows `5000 t …` of it. -/
theorem rows_a (c : Dev nD) (t : Fin cfg2.N) : RowsAgree (iblk2 V c 1 t) (V c main_v38) (t.val * 5000) := by
  have e := idx_facts t
  intro p P hP q
  show V c main_v38 (((cfg2.win 1).blk t).view.emb (ix2 p q)) = V c main_v38 (ix2 P q)
  refine congrArg (V c main_v38) (funext fun a => Fin.ext ?_)
  match a with
  | ⟨0, _⟩ => show win2_1.index t (0 : Fin 2) * 5000 + 1 * p.val = P.val; omega
  | ⟨1, _⟩ => show win2_1.index t (1 : Fin 2) * 64 + 1 * q.val = q.val; omega

/-- Point `t`'s block of the first weight matrix is the whole of it. -/
theorem whole_w1 (c : Dev nD) (t : Fin cfg2.N) : iblk2 V c 2 t = V c main_v40 := by
  have e := idx_facts t
  funext y
  show V c main_v40 (((cfg2.win 2).blk t).view.emb y) = V c main_v40 y
  refine congrArg (V c main_v40) (funext fun a => Fin.ext ?_)
  match a with
  | ⟨0, _⟩ => show win2_2.index t (0 : Fin 2) * 64 + 1 * (y 0).val = (y 0).val; omega
  | ⟨1, _⟩ => show win2_2.index t (1 : Fin 2) * 64 + 1 * (y 1).val = (y 1).val; omega

/-- Point `t`'s block of the first bias row is the whole of it. -/
theorem whole_b1 (c : Dev nD) (t : Fin cfg2.N) : iblk2 V c 3 t = V c main_v47 := by
  have e := idx_facts t
  funext y
  show V c main_v47 (((cfg2.win 3).blk t).view.emb y) = V c main_v47 y
  refine congrArg (V c main_v47) (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

/-- Point `t`'s block of the second weight matrix is the whole of it. -/
theorem whole_w2 (c : Dev nD) (t : Fin cfg2.N) : iblk2 V c 4 t = V c main_v44 := by
  have e := idx_facts t
  funext y
  show V c main_v44 (((cfg2.win 4).blk t).view.emb y) = V c main_v44 y
  refine congrArg (V c main_v44) (funext fun a => Fin.ext ?_)
  match a with
  | ⟨0, _⟩ => show win2_4.index t (0 : Fin 2) * 64 + 1 * (y 0).val = (y 0).val; omega
  | ⟨1, _⟩ => show win2_4.index t (1 : Fin 2) * 64 + 1 * (y 1).val = (y 1).val; omega

/-- Point `t`'s block of the second bias row is the whole of it. -/
theorem whole_b2 (c : Dev nD) (t : Fin cfg2.N) : iblk2 V c 5 t = V c main_v48 := by
  have e := idx_facts t
  funext y
  show V c main_v48 (((cfg2.win 5).blk t).view.emb y) = V c main_v48 y
  refine congrArg (V c main_v48) (funext fun a => Fin.ext ?_)
  match a with
  | ⟨0, _⟩ => show win2_5.index t (0 : Fin 2) * 1 + 1 * (y 0).val = (y 0).val; omega
  | ⟨1, _⟩ => show win2_5.index t (1 : Fin 2) * 64 + 1 * (y 1).val = (y 1).val; omega

/-- What point `t` writes back to the first output is block `t` of `G`. -/
theorem flushed6_eq (c : Dev nD) (t : Fin cfg2.N) :
    (dat2 V c).flushed 6 t = ((cfg2.win 6).blk t).view.read (Elt Ideal) (G V c) := by
  show (cfg2.win 6).cut (grid2.coords t) ((dat2 V c).after 6 t) = _
  rw [after2_6]
  unfold out2_6
  rw [View.canon_unit_zero hz]
  simp only [View.ld_unit_zero (S := S5000x64) hz, View.ld_unit_zero (S := S64x64) hz, View.ld_unit_zero (S := S1x64) hz]
  rw [pay2]
  have e := idx_facts t
  funext j
  show mlp (iblk2 V c 0 t) (iblk2 V c 1 t) (iblk2 V c 2 t) (rowOf (iblk2 V c 3 t)) (iblk2 V c 4 t) (rowOf (iblk2 V c 5 t)) j
    = mlp (V c main_v27_0) (V c main_v38) (V c main_v40) (rowOf (V c main_v47)) (V c main_v44) (rowOf (V c main_v48)) (((cfg2.win 6).blk t).view.emb j)
  refine mlp_block (V c main_v27_0) (V c main_v38) (V c main_v40) (V c main_v47) (V c main_v44) (V c main_v48)
    (iblk2 V c 0 t) (iblk2 V c 1 t) (iblk2 V c 2 t) (iblk2 V c 3 t) (iblk2 V c 4 t) (iblk2 V c 5 t)
    (t.val * 5000) (rows_h V c t) (rows_a V c t) (whole_w1 V c t) (whole_b1 V c t) (whole_w2 V c t) (whole_b2 V c t)
    j (((cfg2.win 6).blk t).view.emb j) ?_ ?_
  · show win2_6.index t (0 : Fin 2) * 5000 + 1 * (j 0).val = t.val * 5000 + (j 0).val; omega
  · show win2_6.index t (1 : Fin 2) * 64 + 1 * (j 1).val = (j 1).val; omega

/-- An index of the first output is in point `t`'s block iff each coordinate is in the block's range. -/
theorem mem_blk6 (t : Fin cfg2.N) (i : S100000x64.Idx) :
    i ∈ ((cfg2.win 6).blk t).view.set ↔ ∀ a : Fin 2, win2_6.index t a * S5000x64.size a ≤ (i a).val ∧ (i a).val < win2_6.index t a * S5000x64.size a + S5000x64.size a := by
  show i ∈ ((View.whole main_v49_0).slice (win2_6.rect t)).set ↔ _
  rw [View.set_slice_whole, Rect.mem_set_unit]
  exact Iff.rfl

/-- Every index of the first output is in some point's block: row `r` in point `r / 5000`'s. -/
theorem cover6 (i : S100000x64.Idx) : ∃ t : Fin cfg2.N, (cfg2.win 6).flush t = true ∧ i ∈ ((cfg2.win 6).blk t).view.set := by
  have hi0 : (i 0).val < 100000 := (i 0).isLt
  have hi1 : (i 1).val < 64 := (i 1).isLt
  let t : Fin cfg2.N := ⟨(i 0).val / 5000, by show (i 0).val / 5000 < 20; omega⟩
  have e := idx_facts t
  have ht : t.val = (i 0).val / 5000 := rfl
  refine ⟨t, flush2_6 t, ?_⟩
  rw [mem_blk6]
  intro a
  match a with
  | ⟨0, _⟩ => show win2_6.index t (0 : Fin 2) * 5000 ≤ (i 0).val ∧ (i 0).val < win2_6.index t (0 : Fin 2) * 5000 + 5000; omega
  | ⟨1, _⟩ => show win2_6.index t (1 : Fin 2) * 64 ≤ (i 1).val ∧ (i 1).val < win2_6.index t (1 : Fin 2) * 64 + 64; omega

/-- The first output array after the region. -/
theorem final6 (c : Dev nD) : (dat2 V c).arrAt 6 cfg2.N = G V c :=
  (dat2 V c).arrAt_eq_of_cover 6 (G V c) (fun t _ => flushed6_eq V c t) cover6

/-- What point `t` writes back to the second output is block `t` of `G`. -/
theorem flushed7_eq (c : Dev nD) (t : Fin cfg2.N) :
    (dat2 V c).flushed 7 t = ((cfg2.win 7).blk t).view.read (Elt Ideal) (G V c) := by
  show (cfg2.win 7).cut (grid2.coords t) ((dat2 V c).after 7 t) = _
  rw [after2_7]
  unfold out2_7
  rw [View.canon_unit_zero hz]
  simp only [View.ld_unit_zero (S := S5000x64) hz, View.ld_unit_zero (S := S64x64) hz, View.ld_unit_zero (S := S1x64) hz]
  rw [pay2b]
  have e := idx_facts t
  funext j
  show mlp (iblk2 V c 0 t) (iblk2 V c 1 t) (iblk2 V c 2 t) (rowOf (iblk2 V c 3 t)) (iblk2 V c 4 t) (rowOf (iblk2 V c 5 t)) j
    = mlp (V c main_v27_0) (V c main_v38) (V c main_v40) (rowOf (V c main_v47)) (V c main_v44) (rowOf (V c main_v48)) (((cfg2.win 7).blk t).view.emb j)
  refine mlp_block (V c main_v27_0) (V c main_v38) (V c main_v40) (V c main_v47) (V c main_v44) (V c main_v48)
    (iblk2 V c 0 t) (iblk2 V c 1 t) (iblk2 V c 2 t) (iblk2 V c 3 t) (iblk2 V c 4 t) (iblk2 V c 5 t)
    (t.val * 5000) (rows_h V c t) (rows_a V c t) (whole_w1 V c t) (whole_b1 V c t) (whole_w2 V c t) (whole_b2 V c t)
    j (((cfg2.win 7).blk t).view.emb j) ?_ ?_
  · show win2_7.index t (0 : Fin 2) * 5000 + 1 * (j 0).val = t.val * 5000 + (j 0).val; omega
  · show win2_7.index t (1 : Fin 2) * 64 + 1 * (j 1).val = (j 1).val; omega

/-- An index of the second output is in point `t`'s block iff each coordinate is in the block's range. -/
theorem mem_blk7 (t : Fin cfg2.N) (i : S100000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v49_1).slice (win2_7.rect t)).set ↔ _
  rw [View.set_slice_whole, Rect.mem_set_unit]
  exact Iff.rfl

/-- Every index of the second output is in some point's block: row `r` in point `r / 5000`'s. -/
theorem cover7 (i : S100000x64.Idx) : ∃ t : Fin cfg2.N, (cfg2.win 7).flush t = true ∧ i ∈ ((cfg2.win 7).blk t).view.set := by
  have hi0 : (i 0).val < 100000 := (i 0).isLt
  have hi1 : (i 1).val < 64 := (i 1).isLt
  let t : Fin cfg2.N := ⟨(i 0).val / 5000, by show (i 0).val / 5000 < 20; omega⟩
  have e := idx_facts t
  have ht : t.val = (i 0).val / 5000 := rfl
  refine ⟨t, flush2_7 t, ?_⟩
  rw [mem_blk7]
  intro a
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 64 ≤ (i 1).val ∧ (i 1).val < win2_7.index t (1 : Fin 2) * 64 + 64; omega

/-- The second output array after the region. -/
theorem final7 (c : Dev nD) : (dat2 V c).arrAt 7 cfg2.N = G V c :=
  (dat2 V c).arrAt_eq_of_cover 7 (G V c) (fun t _ => flushed7_eq V c t) cover7

end Cert.KernelIdeal.Region2

end
-- ==== Proof.KernelRegion3.lean ====
/-
  Layer region 3's two output arrays, as whole-array functions of the arrays the region is entered with.

  The region runs over 20 grid points. Point `t` reads rows `5000 t … 5000 t + 4999` of the features and of the neighbour
  sums, the two whole weight matrices and the two whole bias rows, and writes rows `5000 t … 5000 t + 4999` of both
  outputs. An entry of the layer depends on one row of the features and of the neighbour sums only, so what point `t`
  writes is that block of rows of the layer of the whole arrays; the 20 blocks tile the 100000 rows, so each output array
  ends holding the layer of the whole arrays.
-/
import proofs.«131369_j32332513804324_2_alg».proof.Proof.Gen.KernelIdeal.Frame
import proofs.«131369_j32332513804324_2_alg».proof.Proof.KernelPay
import proofs.«131369_j32332513804324_2_alg».proof.Proof.GinBlocks
import Idealize.ShloMosaic.Lib.Pipeline.Value
import Idealize.ShloMosaic.Lib.ValueIdx

set_option maxRecDepth 16384

noncomputable section

namespace Cert.KernelIdeal.Region3

open Cert.KernelIdeal Cert.KernelIdeal.Gen Cert.KernelIdeal.Pay
open Idealize.ShloMosaic Idealize.ShloMosaic.TcCoe Idealize.ShloMosaic.ValueIdx Idealize.SL.Sem
open Idealize.ShloMosaic.Pipeline (Dat Cfg Window)
open Cert.DenseLayer Cert.LayerForms Cert.LibRowBias Cert.Gin

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the four row windows are at block `(t, 0)`, the weights and the bias rows at
    `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0
    ∧ win3_7.index t (0 : Fin 2) = t.val ∧ win3_7.index t (1 : Fin 2) = 0 :=
  (by decide +kernel : ∀ t : Fin grid3.N, _)

/-- The array both outputs end holding: the layer of the entry contents of the six input arrays. -/
def G (c : Dev nD) : Mat 100000 64 :=
  mlp (V c main_v49_0) (V c main_v60) (V c main_v62) (rowOf (V c main_v69)) (V c main_v66) (rowOf (V c main_v70))

/-- Point `t`'s block of the features is rows `5000 t …` of it. -/
theorem rows_h (c : Dev nD) (t : Fin cfg3.N) : RowsAgree (iblk3 V c 0 t) (V c main_v49_0) (t.val * 5000) := by
  have e := idx_facts t
  intro p P hP q
  show V c main_v49_0 (((cfg3.win 0).blk t).view.emb (ix2 p q)) = V c main_v49_0 (ix2 P q)
  refine congrArg (V c main_v49_0) (funext fun a => Fin.ext ?_)
  match a with
  | ⟨0, _⟩ => show win3_0.index t (0 : Fin 2) * 5000 + 1 * p.val = P.val; omega
  | ⟨1, _⟩ => show win3_0.index t (1 : Fin 2) * 64 + 1 * q.val = q.val; omega

/-- Point `t`'s block of the neighbour sums is rows `5000 t …` of it. -/
theorem rows_a (c : Dev nD) (t : Fin cfg3.N) : RowsAgree (iblk3 V c 1 t) (V c main_v60) (t.val * 5000) := by
  have e := idx_facts t
  intro p P hP q
  show V c main_v60 (((cfg3.win 1).blk t).view.emb (ix2 p q)) = V c main_v60 (ix2 P q)
  refine congrArg (V c main_v60) (funext fun a => Fin.ext ?_)
  match a with
  | ⟨0, _⟩ => show win3_1.index t (0 : Fin 2) * 5000 + 1 * p.val = P.val; omega
  | ⟨1, _⟩ => show win3_1.index t (1 : Fin 2) * 64 + 1 * q.val = q.val; omega

/-- Point `t`'s block of the first weight matrix is the whole of it. -/
theorem whole_w1 (c : Dev nD) (t : Fin cfg3.N) : iblk3 V c 2 t = V c main_v62 := by
  have e := idx_facts t
  funext y
  show V c main_v62 (((cfg3.win 2).blk t).view.emb y) = V c main_v62 y
  refine congrArg (V c main_v62) (funext fun a => Fin.ext ?_)
  match a with
  | ⟨0, _⟩ => show win3_2.index t (0 : Fin 2) * 64 + 1 * (y 0).val = (y 0).val; omega
  | ⟨1, _⟩ => show win3_2.index t (1 : Fin 2) * 64 + 1 * (y 1).val = (y 1).val; omega

/-- Point `t`'s block of the first bias row is the whole of it. -/
theorem whole_b1 (c : Dev nD) (t : Fin cfg3.N) : iblk3 V c 3 t = V c main_v69 := by
  have e := idx_facts t
  funext y
  show V c main_v69 (((cfg3.win 3).blk t).view.emb y) = V c main_v69 y
  refine congrArg (V c main_v69) (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

/-- Point `t`'s block of the second weight matrix is the whole of it. -/
theorem whole_w2 (c : Dev nD) (t : Fin cfg3.N) : iblk3 V c 4 t = V c main_v66 := by
  have e := idx_facts t
  funext y
  show V c main_v66 (((cfg3.win 4).blk t).view.emb y) = V c main_v66 y
  refine congrArg (V c main_v66) (funext fun a => Fin.ext ?_)
  match a with
  | ⟨0, _⟩ => show win3_4.index t (0 : Fin 2) * 64 + 1 * (y 0).val = (y 0).val; omega
  | ⟨1, _⟩ => show win3_4.index t (1 : Fin 2) * 64 + 1 * (y 1).val = (y 1).val; omega

/-- Point `t`'s block of the second bias row is the whole of it. -/
theorem whole_b2 (c : Dev nD) (t : Fin cfg3.N) : iblk3 V c 5 t = V c main_v70 := by
  have e := idx_facts t
  funext y
  show V c main_v70 (((cfg3.win 5).blk t).view.emb y) = V c main_v70 y
  refine congrArg (V c main_v70) (funext fun a => Fin.ext ?_)
  match a with
  | ⟨0, _⟩ => show win3_5.index t (0 : Fin 2) * 1 + 1 * (y 0).val = (y 0).val; omega
  | ⟨1, _⟩ => show win3_5.index t (1 : Fin 2) * 64 + 1 * (y 1).val = (y 1).val; omega

/-- What point `t` writes back to the first output is block `t` of `G`. -/
theorem flushed6_eq (c : Dev nD) (t : Fin cfg3.N) :
    (dat3 V c).flushed 6 t = ((cfg3.win 6).blk t).view.read (Elt Ideal) (G V c) := by
  show (cfg3.win 6).cut (grid3.coords t) ((dat3 V c).after 6 t) = _
  rw [after3_6]
  unfold out3_6
  rw [View.canon_unit_zero hz]
  simp only [View.ld_unit_zero (S := S5000x64) hz, View.ld_unit_zero (S := S64x64) hz, View.ld_unit_zero (S := S1x64) hz]
  rw [pay3]
  have e := idx_facts t
  funext j
  show mlp (iblk3 V c 0 t) (iblk3 V c 1 t) (iblk3 V c 2 t) (rowOf (iblk3 V c 3 t)) (iblk3 V c 4 t) (rowOf (iblk3 V c 5 t)) j
    = mlp (V c main_v49_0) (V c main_v60) (V c main_v62) (rowOf (V c main_v69)) (V c main_v66) (rowOf (V c main_v70)) (((cfg3.win 6).blk t).view.emb j)
  refine mlp_block (V c main_v49_0) (V c main_v60) (V c main_v62) (V c main_v69) (V c main_v66) (V c main_v70)
    (iblk3 V c 0 t) (iblk3 V c 1 t) (iblk3 V c 2 t) (iblk3 V c 3 t) (iblk3 V c 4 t) (iblk3 V c 5 t)
    (t.val * 5000) (rows_h V c t) (rows_a V c t) (whole_w1 V c t) (whole_b1 V c t) (whole_w2 V c t) (whole_b2 V c t)
    j (((cfg3.win 6).blk t).view.emb j) ?_ ?_
  · show win3_6.index t (0 : Fin 2) * 5000 + 1 * (j 0).val = t.val * 5000 + (j 0).val; omega
  · show win3_6.index t (1 : Fin 2) * 64 + 1 * (j 1).val = (j 1).val; omega

/-- An index of the first output is in point `t`'s block iff each coordinate is in the block's range. -/
theorem mem_blk6 (t : Fin cfg3.N) (i : S100000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v71_0).slice (win3_6.rect t)).set ↔ _
  rw [View.set_slice_whole, Rect.mem_set_unit]
  exact Iff.rfl

/-- Every index of the first output is in some point's block: row `r` in point `r / 5000`'s. -/
theorem cover6 (i : S100000x64.Idx) : ∃ t : Fin cfg3.N, (cfg3.win 6).flush t = true ∧ i ∈ ((cfg3.win 6).blk t).view.set := by
  have hi0 : (i 0).val < 100000 := (i 0).isLt
  have hi1 : (i 1).val < 64 := (i 1).isLt
  let t : Fin cfg3.N := ⟨(i 0).val / 5000, by show (i 0).val / 5000 < 20; omega⟩
  have e := idx_facts t
  have ht : t.val = (i 0).val / 5000 := rfl
  refine ⟨t, flush3_6 t, ?_⟩
  rw [mem_blk6]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 64 ≤ (i 1).val ∧ (i 1).val < win3_6.index t (1 : Fin 2) * 64 + 64; omega

/-- The first output array after the region. -/
theorem final6 (c : Dev nD) : (dat3 V c).arrAt 6 cfg3.N = G V c :=
  (dat3 V c).arrAt_eq_of_cover 6 (G V c) (fun t _ => flushed6_eq V c t) cover6

/-- What point `t` writes back to the second output is block `t` of `G`. -/
theorem flushed7_eq (c : Dev nD) (t : Fin cfg3.N) :
    (dat3 V c).flushed 7 t = ((cfg3.win 7).blk t).view.read (Elt Ideal) (G V c) := by
  show (cfg3.win 7).cut (grid3.coords t) ((dat3 V c).after 7 t) = _
  rw [after3_7]
  unfold out3_7
  rw [View.canon_unit_zero hz]
  simp only [View.ld_unit_zero (S := S5000x64) hz, View.ld_unit_zero (S := S64x64) hz, View.ld_unit_zero (S := S1x64) hz]
  rw [pay3b]
  have e := idx_facts t
  funext j
  show mlp (iblk3 V c 0 t) (iblk3 V c 1 t) (iblk3 V c 2 t) (rowOf (iblk3 V c 3 t)) (iblk3 V c 4 t) (rowOf (iblk3 V c 5 t)) j
    = mlp (V c main_v49_0) (V c main_v60) (V c main_v62) (rowOf (V c main_v69)) (V c main_v66) (rowOf (V c main_v70)) (((cfg3.win 7).blk t).view.emb j)
  refine mlp_block (V c main_v49_0) (V c main_v60) (V c main_v62) (V c main_v69) (V c main_v66) (V c main_v70)
    (iblk3 V c 0 t) (iblk3 V c 1 t) (iblk3 V c 2 t) (iblk3 V c 3 t) (iblk3 V c 4 t) (iblk3 V c 5 t)
    (t.val * 5000) (rows_h V c t) (rows_a V c t) (whole_w1 V c t) (whole_b1 V c t) (whole_w2 V c t) (whole_b2 V c t)
    j (((cfg3.win 7).blk t).view.emb j) ?_ ?_
  · show win3_7.index t (0 : Fin 2) * 5000 + 1 * (j 0).val = t.val * 5000 + (j 0).val; omega
  · show win3_7.index t (1 : Fin 2) * 64 + 1 * (j 1).val = (j 1).val; omega

/-- An index of the second output is in point `t`'s block iff each coordinate is in the block's range. -/
theorem mem_blk7 (t : Fin cfg3.N) (i : S100000x64.Idx) :
    i ∈ ((cfg3.win 7).blk t).view.set ↔ ∀ a : Fin 2, win3_7.index t a * S5000x64.size a ≤ (i a).val ∧ (i a).val < win3_7.index t a * S5000x64.size a + S5000x64.size a := by
  show i ∈ ((View.whole main_v71_1).slice (win3_7.rect t)).set ↔ _
  rw [View.set_slice_whole, Rect.mem_set_unit]
  exact Iff.rfl

/-- Every index of the second output is in some point's block: row `r` in point `r / 5000`'s. -/
theorem cover7 (i : S100000x64.Idx) : ∃ t : Fin cfg3.N, (cfg3.win 7).flush t = true ∧ i ∈ ((cfg3.win 7).blk t).view.set := by
  have hi0 : (i 0).val < 100000 := (i 0).isLt
  have hi1 : (i 1).val < 64 := (i 1).isLt
  let t : Fin cfg3.N := ⟨(i 0).val / 5000, by show (i 0).val / 5000 < 20; omega⟩
  have e := idx_facts t
  have ht : t.val = (i 0).val / 5000 := rfl
  refine ⟨t, flush3_7 t, ?_⟩
  rw [mem_blk7]
  intro a
  match a with
  | ⟨0, _⟩ => show win3_7.index t (0 : Fin 2) * 5000 ≤ (i 0).val ∧ (i 0).val < win3_7.index t (0 : Fin 2) * 5000 + 5000; omega
  | ⟨1, _⟩ => show win3_7.index t (1 : Fin 2) * 64 ≤ (i 1).val ∧ (i 1).val < win3_7.index t (1 : Fin 2) * 64 + 64; omega

/-- The second output array after the region. -/
theorem final7 (c : Dev nD) : (dat3 V c).arrAt 7 cfg3.N = G V c :=
  (dat3 V c).arrAt_eq_of_cover 7 (G V c) (fun t _ => flushed7_eq V c t) cover7

end Cert.KernelIdeal.Region3

end
-- ==== Proof.KernelFold.lean ====
/-
  The idealized kernel's result buffer as one function of its argument arrays.

  The program's buffer contents at each boundary between a stretch of host operations and a kernel region are a fold
  from the launch memory. Walking the fold: the first stretch cuts the edge list into source and destination nodes and
  reshapes the input bias to a row; the projection region leaves `x · w + b` in both its outputs; each later stretch
  gathers the rows of the previous features at the source nodes, adds them into a zero array at the destination nodes,
  and cuts that layer's weights and bias rows out of the stacked arguments; each layer region leaves the layer of its
  six input arrays in both its outputs; the last stretch pools the last features per graph, multiplies by the read-out
  weights and adds the read-out bias. A buffer no operation of a stretch writes, and no region has for one of its
  arrays, keeps its contents across that segment. So the result buffer ends at the network `net` of the launch contents
  of the arguments.
-/
import proofs.«131369_j32332513804324_2_alg».proof.Proof.Gen.KernelIdeal.Frame
import proofs.«131369_j32332513804324_2_alg».proof.Proof.KernelRegion0
import proofs.«131369_j32332513804324_2_alg».proof.Proof.KernelRegion1
import proofs.«131369_j32332513804324_2_alg».proof.Proof.KernelRegion2
import proofs.«131369_j32332513804324_2_alg».proof.Proof.KernelRegion3
import proofs.«131369_j32332513804324_2_alg».proof.Proof.GinSpec
import Idealize.ShloMosaic.Lib.StableHlo.Run
import Idealize.ShloMosaic.PureOps.Ideal

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.DenseLayer Cert.LayerForms Cert.LibRowBias Cert.Gin

/-! ## The host operations of the stretches, as functions of their operands -/

/-- The source nodes: row 0 of the edge list. -/
def srcK (e : (⟨S2x1000000, .i32⟩ : BufTy).Contents (Elt Ideal)) : (⟨S1000000, .i32⟩ : BufTy).Contents (Elt Ideal) :=
  shapeCast _ (extractStridedSlice S1x1000000 ![0, 0] e slices_S2x1000000_S1x1000000_0_0) shapeCasts_S1x1000000_S1000000

/-- The destination nodes: row 1 of the edge list. -/
def dstK (e : (⟨S2x1000000, .i32⟩ : BufTy).Contents (Elt Ideal)) : (⟨S1000000, .i32⟩ : BufTy).Contents (Elt Ideal) :=
  shapeCast _ (extractStridedSlice S1x1000000 ![1, 0] e slices_S2x1000000_S1x1000000_1_0) shapeCasts_S1x1000000_S1000000

/-- A bias vector reshaped to a `[1, 64]` row. -/
def rowK (b : (⟨S64, .f32⟩ : BufTy).Contents (Elt Ideal)) : (⟨S1x64, .f32⟩ : BufTy).Contents (Elt Ideal) :=
  shapeCast _ b shapeCasts_S64_S1x64

/-- Layer 0's weight matrix: slice 0 of a stacked `[3, 64, 64]` argument. -/
def wK0 (x : (⟨S3x64x64, .f32⟩ : BufTy).Contents (Elt Ideal)) : (⟨S64x64, .f32⟩ : BufTy).Contents (Elt Ideal) :=
  shapeCast _ (extractStridedSlice S1x64x64 ![0, 0, 0] x slices_S3x64x64_S1x64x64_0_0_0) shapeCasts_S1x64x64_S64x64

/-- Layer 0's bias row: slice 0 of a stacked `[3, 64]` argument, as a `[1, 64]` row. -/
def bK0 (x : (⟨S3x64, .f32⟩ : BufTy).Contents (Elt Ideal)) : (⟨S1x64, .f32⟩ : BufTy).Contents (Elt Ideal) :=
  shapeCast _ (shapeCast _ (extractStridedSlice S1x64 ![0, 0] x slices_S3x64_S1x64_0_0) shapeCasts_S1x64_S64) shapeCasts_S64_S1x64

/-- Layer 1's weight matrix: slice 1 of a stacked `[3, 64, 64]` argument. -/
def wK1 (x : (⟨S3x64x64, .f32⟩ : BufTy).Contents (Elt Ideal)) : (⟨S64x64, .f32⟩ : BufTy).Contents (Elt Ideal) :=
  shapeCast _ (extractStridedSlice S1x64x64 ![1, 0, 0] x slices_S3x64x64_S1x64x64_1_0_0) shapeCasts_S1x64x64_S64x64

/-- Layer 1's bias row: slice 1 of a stacked `[3, 64]` argument, as a `[1, 64]` row. -/
def bK1 (x : (⟨S3x64, .f32⟩ : BufTy).Contents (Elt Ideal)) : (⟨S1x64, .f32⟩ : BufTy).Contents (Elt Ideal) :=
  shapeCast _ (shapeCast _ (extractStridedSlice S1x64 ![1, 0] x slices_S3x64_S1x64_1_0) shapeCasts_S1x64_S64) shapeCasts_S64_S1x64

/-- Layer 2's weight matrix: slice 2 of a stacked `[3, 64, 64]` argument. -/
def wK2 (x : (⟨S3x64x64, .f32⟩ : BufTy).Contents (Elt Ideal)) : (⟨S64x64, .f32⟩ : BufTy).Contents (Elt Ideal) :=
  shapeCast _ (extractStridedSlice S1x64x64 ![2, 0, 0] x slices_S3x64x64_S1x64x64_2_0_0) shapeCasts_S1x64x64_S64x64

/-- Layer 2's bias row: slice 2 of a stacked `[3, 64]` argument, as a `[1, 64]` row. -/
def bK2 (x : (⟨S3x64, .f32⟩ : BufTy).Contents (Elt Ideal)) : (⟨S1x64, .f32⟩ : BufTy).Contents (Elt Ideal) :=
  shapeCast _ (shapeCast _ (extractStridedSlice S1x64 ![2, 0] x slices_S3x64_S1x64_2_0) shapeCasts_S1x64_S64) shapeCasts_S64_S1x64

/-- The neighbour sums: rows of `hbf` gathered at the source nodes `s` (a negative node counted from the end), added into a
    zero array at the destination nodes `d`. -/
def aggK (hbf : (⟨S100000x64, .bf16⟩ : BufTy).Contents (Elt Ideal)) (s d : (⟨S1000000, .i32⟩ : BufTy).Contents (Elt Ideal)) :
    (⟨S100000x64, .f32⟩ : BufTy).Contents (Elt Ideal) :=
  Host.scatterAdd (F := Ideal) (φ := .f32) scatter_S100000x64_S1000000x1_S1000000x64_1_0_0_1
    (broadcastInDim S100000x64 ![] bcast_S_S100000x64 (constant S_ .f32 0x00000000#32))
    (broadcastInDim S1000000x1 ![0] bcast_S1000000_S1000000x1_0 d)
    (extf .f32 (Host.gather gather_S100000x64_S1000000x1_S1000000x64_1_0_n_n_0_1_164 hbf
      (broadcastInDim S1000000x1 ![0] bcast_S1000000_S1000000x1_0
        (select (cmpi .slt s (broadcastInDim S1000000 ![] bcast_S_S1000000 (constantI S_ 32 0#32)))
          (addi s (broadcastInDim S1000000 ![] bcast_S_S1000000 (constantI S_ 32 100000#32))) s))) bitsLt_bf16_f32)

/-- The read-out: rows of `h` pooled per graph by a scatter-add into a zero array, a matrix product, a bias. -/
def tailK (h : (⟨S100000x64, .f32⟩ : BufTy).Contents (Elt Ideal)) (batch : (⟨S100000, .i32⟩ : BufTy).Contents (Elt Ideal))
    (wfc : (⟨S64x32, .f32⟩ : BufTy).Contents (Elt Ideal)) (bfc : (⟨S32, .f32⟩ : BufTy).Contents (Elt Ideal)) :
    (⟨S128x32, .f32⟩ : BufTy).Contents (Elt Ideal) :=
  addf (F := Ideal) (Host.dotGeneral (φ₂ := .f32) dot_S128x64_S64x32_S128x32_1_0_0_1_n_n none
      (Host.scatterAdd (F := Ideal) (φ := .f32) scatter_S128x64_S100000x1_S100000x64_1_0_0_1
        (broadcastInDim S128x64 ![] bcast_S_S128x64 (constant S_ .f32 0x00000000#32))
        (broadcastInDim S100000x1 ![0] bcast_S100000_S100000x1_0 batch) h) wfc)
    (broadcastInDim S128x32 ![0, 1] bcast_S1x32_S128x32_0_1 (broadcastInDim S1x32 ![1] bcast_S32_S1x32_1 bfc))

/-- The neighbour sums of equal operands are equal. -/
theorem aggK_congr {hbf hbf' : (⟨S100000x64, .bf16⟩ : BufTy).Contents (Elt Ideal)} {s s' d d' : (⟨S1000000, .i32⟩ : BufTy).Contents (Elt Ideal)}
    (h : hbf = hbf') (hs : s = s') (hd : d = d') : aggK hbf s d = aggK hbf' s' d' := by
  subst h hs hd; rfl

/-- A buffer that no operation of a stretch writes keeps its contents across the stretch. -/
macro "host_keep " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

variable (m : (ℓ : Loc nD τ sig) → Buf (Elt Ideal) ℓ) (ρ : Dev nD → PrngReg) (c : Dev nD)

/-! ## The values along the fold, as functions of the launch memory -/

/-- The source nodes of the launch edge list. -/
def src : (⟨S1000000, .i32⟩ : BufTy).Contents (Elt Ideal) := srcK (m ((c : Thread nD τ).loc main_arg1))
/-- The destination nodes of the launch edge list. -/
def dst : (⟨S1000000, .i32⟩ : BufTy).Contents (Elt Ideal) := dstK (m ((c : Thread nD τ).loc main_arg1))
/-- The neighbour sums of features `h` over the launch edge list. -/
def aggM (h : Mat 100000 64) : Mat 100000 64 := aggK h (src m c) (dst m c)
/-- The read-out of features `h` with the launch graph assignment, weights and bias. -/
def tailM (h : Mat 100000 64) : Mat 128 32 := tailK h (m ((c : Thread nD τ).loc main_arg2)) (m ((c : Thread nD τ).loc main_arg9)) (m ((c : Thread nD τ).loc main_arg10))
/-- The projected input features. -/
def H0 : Mat 100000 64 := dense (m ((c : Thread nD τ).loc main_arg0)) (m ((c : Thread nD τ).loc main_arg3)) (rowOf (rowK (m ((c : Thread nD τ).loc main_arg4))))
/-- The features after layer 0. -/
def H1 : Mat 100000 64 := mlp (H0 m c) (aggM m c (H0 m c)) (wK0 (m ((c : Thread nD τ).loc main_arg5))) (rowOf (bK0 (m ((c : Thread nD τ).loc main_arg6)))) (wK0 (m ((c : Thread nD τ).loc main_arg7))) (rowOf (bK0 (m ((c : Thread nD τ).loc main_arg8))))
/-- The features after layer 1. -/
def H2 : Mat 100000 64 := mlp (H1 m c) (aggM m c (H1 m c)) (wK1 (m ((c : Thread nD τ).loc main_arg5))) (rowOf (bK1 (m ((c : Thread nD τ).loc main_arg6)))) (wK1 (m ((c : Thread nD τ).loc main_arg7))) (rowOf (bK1 (m ((c : Thread nD τ).loc main_arg8))))
/-- The features after layer 2. -/
def H3 : Mat 100000 64 := mlp (H2 m c) (aggM m c (H2 m c)) (wK2 (m ((c : Thread nD τ).loc main_arg5))) (rowOf (bK2 (m ((c : Thread nD τ).loc main_arg6)))) (wK2 (m ((c : Thread nD τ).loc main_arg7))) (rowOf (bK2 (m ((c : Thread nD τ).loc main_arg8))))

/-! ## After the first stretch -/

theorem w1_v1 : W1 m ρ c (Proc.devRef .tc main_v1) = src m c := by
  show StableHlo.after hostOps0 (W0 m ρ c) (Proc.devRef .tc main_v1) = _
  after_results; rfl

theorem w1_v3 : W1 m ρ c (Proc.devRef .tc main_v3) = dst m c := by
  show StableHlo.after hostOps0 (W0 m ρ c) (Proc.devRef .tc main_v3) = _
  after_results; rfl

theorem w1_v4 : W1 m ρ c (Proc.devRef .tc main_v4) = rowK (m ((c : Thread nD τ).loc main_arg4)) := by
  show StableHlo.after hostOps0 (W0 m ρ c) (Proc.devRef .tc main_v4) = _
  after_results; rfl

theorem w1_arg0 : W1 m ρ c (Proc.devRef .tc main_arg0) = m ((c : Thread nD τ).loc main_arg0) :=
  (show W1 m ρ c (Proc.devRef .tc main_arg0) = W0 m ρ c (Proc.devRef .tc main_arg0) by host_keep hostOps0).trans rfl

theorem w1_arg3 : W1 m ρ c (Proc.devRef .tc main_arg3) = m ((c : Thread nD τ).loc main_arg3) :=
  (show W1 m ρ c (Proc.devRef .tc main_arg3) = W0 m ρ c (Proc.devRef .tc main_arg3) by host_keep hostOps0).trans rfl

theorem w1_arg2 : W1 m ρ c (Proc.devRef .tc main_arg2) = m ((c : Thread nD τ).loc main_arg2) :=
  (show W1 m ρ c (Proc.devRef .tc main_arg2) = W0 m ρ c (Proc.devRef .tc main_arg2) by host_keep hostOps0).trans rfl

theorem w1_arg5 : W1 m ρ c (Proc.devRef .tc main_arg5) = m ((c : Thread nD τ).loc main_arg5) :=
  (show W1 m ρ c (Proc.devRef .tc main_arg5) = W0 m ρ c (Proc.devRef .tc main_arg5) by host_keep hostOps0).trans rfl

theorem w1_arg6 : W1 m ρ c (Proc.devRef .tc main_arg6) = m ((c : Thread nD τ).loc main_arg6) :=
  (show W1 m ρ c (Proc.devRef .tc main_arg6) = W0 m ρ c (Proc.devRef .tc main_arg6) by host_keep hostOps0).trans rfl

theorem w1_arg7 : W1 m ρ c (Proc.devRef .tc main_arg7) = m ((c : Thread nD τ).loc main_arg7) :=
  (show W1 m ρ c (Proc.devRef .tc main_arg7) = W0 m ρ c (Proc.devRef .tc main_arg7) by host_keep hostOps0).trans rfl

theorem w1_arg8 : W1 m ρ c (Proc.devRef .tc main_arg8) = m ((c : Thread nD τ).loc main_arg8) :=
  (show W1 m ρ c (Proc.devRef .tc main_arg8) = W0 m ρ c (Proc.devRef .tc main_arg8) by host_keep hostOps0).trans rfl

theorem w1_arg9 : W1 m ρ c (Proc.devRef .tc main_arg9) = m ((c : Thread nD τ).loc main_arg9) :=
  (show W1 m ρ c (Proc.devRef .tc main_arg9) = W0 m ρ c (Proc.devRef .tc main_arg9) by host_keep hostOps0).trans rfl

theorem w1_arg10 : W1 m ρ c (Proc.devRef .tc main_arg10) = m ((c : Thread nD τ).loc main_arg10) :=
  (show W1 m ρ c (Proc.devRef .tc main_arg10) = W0 m ρ c (Proc.devRef .tc main_arg10) by host_keep hostOps0).trans rfl

/-! ## After the projection region -/

theorem w2_v5_0 : W2 m ρ c (Proc.devRef .tc main_v5_0) = H0 m c :=
  (W2_arr m ρ c 3).trans ((Region0.final3 (V1 m ρ) c).trans (by
    show dense (W1 m ρ c (Proc.devRef .tc main_arg0)) (W1 m ρ c (Proc.devRef .tc main_arg3)) (rowOf (W1 m ρ c (Proc.devRef .tc main_v4))) = _
    rw [w1_arg0, w1_arg3, w1_v4]; rfl))

theorem w2_v5_1 : W2 m ρ c (Proc.devRef .tc main_v5_1) = H0 m c :=
  (W2_arr m ρ c 4).trans ((Region0.final4 (V1 m ρ) c).trans (by
    show dense (W1 m ρ c (Proc.devRef .tc main_arg0)) (W1 m ρ c (Proc.devRef .tc main_arg3)) (rowOf (W1 m ρ c (Proc.devRef .tc main_v4))) = _
    rw [w1_arg0, w1_arg3, w1_v4]; rfl))

theorem w2_v1 : W2 m ρ c (Proc.devRef .tc main_v1) = src m c :=
  (W2_of_ne m ρ c main_v1 (by decide)).trans (w1_v1 m ρ c)

theorem w2_v3 : W2 m ρ c (Proc.devRef .tc main_v3) = dst m c :=
  (W2_of_ne m ρ c main_v3 (by decide)).trans (w1_v3 m ρ c)

theorem w2_arg2 : W2 m ρ c (Proc.devRef .tc main_arg2) = m ((c : Thread nD τ).loc main_arg2) :=
  (W2_of_ne m ρ c main_arg2 (by decide)).trans (w1_arg2 m ρ c)

theorem w2_arg5 : W2 m ρ c (Proc.devRef .tc main_arg5) = m ((c : Thread nD τ).loc main_arg5) :=
  (W2_of_ne m ρ c main_arg5 (by decide)).trans (w1_arg5 m ρ c)

theorem w2_arg6 : W2 m ρ c (Proc.devRef .tc main_arg6) = m ((c : Thread nD τ).loc main_arg6) :=
  (W2_of_ne m ρ c main_arg6 (by decide)).trans (w1_arg6 m ρ c)

theorem w2_arg7 : W2 m ρ c (Proc.devRef .tc main_arg7) = m ((c : Thread nD τ).loc main_arg7) :=
  (W2_of_ne m ρ c main_arg7 (by decide)).trans (w1_arg7 m ρ c)

theorem w2_arg8 : W2 m ρ c (Proc.devRef .tc main_arg8) = m ((c : Thread nD τ).loc main_arg8) :=
  (W2_of_ne m ρ c main_arg8 (by decide)).trans (w1_arg8 m ρ c)

theorem w2_arg9 : W2 m ρ c (Proc.devRef .tc main_arg9) = m ((c : Thread nD τ).loc main_arg9) :=
  (W2_of_ne m ρ c main_arg9 (by decide)).trans (w1_arg9 m ρ c)

theorem w2_arg10 : W2 m ρ c (Proc.devRef .tc main_arg10) = m ((c : Thread nD τ).loc main_arg10) :=
  (W2_of_ne m ρ c main_arg10 (by decide)).trans (w1_arg10 m ρ c)

/-! ## After stretch 1 -/

theorem w3_v5_0 : W3 m ρ c (Proc.devRef .tc main_v5_0) = H0 m c :=
  (show W3 m ρ c (Proc.devRef .tc main_v5_0) = W2 m ρ c (Proc.devRef .tc main_v5_0) by host_keep hostOps1).trans (w2_v5_0 m ρ c)

theorem w3_v16 : W3 m ρ c (Proc.devRef .tc main_v16) = aggM m c (H0 m c) :=
  (show StableHlo.after hostOps1 (W2 m ρ c) (Proc.devRef .tc main_v16)
      = aggK (W2 m ρ c (Proc.devRef .tc main_v5_1)) (W2 m ρ c (Proc.devRef .tc main_v1)) (W2 m ρ c (Proc.devRef .tc main_v3)) by
    after_results_simp <;> rfl).trans
    (aggK_congr (w2_v5_1 m ρ c) (w2_v1 m ρ c) (w2_v3 m ρ c))

theorem w3_v18 : W3 m ρ c (Proc.devRef .tc main_v18) = wK0 (m ((c : Thread nD τ).loc main_arg5)) := by
  show StableHlo.after hostOps1 (W2 m ρ c) (Proc.devRef .tc main_v18) = _
  after_results
  rw [w2_arg5]; rfl

theorem w3_v25 : W3 m ρ c (Proc.devRef .tc main_v25) = bK0 (m ((c : Thread nD τ).loc main_arg6)) := by
  show StableHlo.after hostOps1 (W2 m ρ c) (Proc.devRef .tc main_v25) = _
  after_results
  rw [w2_arg6]; rfl

theorem w3_v22 : W3 m ρ c (Proc.devRef .tc main_v22) = wK0 (m ((c : Thread nD τ).loc main_arg7)) := by
  show StableHlo.after hostOps1 (W2 m ρ c) (Proc.devRef .tc main_v22) = _
  after_results
  rw [w2_arg7]; rfl

theorem w3_v26 : W3 m ρ c (Proc.devRef .tc main_v26) = bK0 (m ((c : Thread nD τ).loc main_arg8)) := by
  show StableHlo.after hostOps1 (W2 m ρ c) (Proc.devRef .tc main_v26) = _
  after_results
  rw [w2_arg8]; rfl

theorem w3_v1 : W3 m ρ c (Proc.devRef .tc main_v1) = src m c :=
  (show W3 m ρ c (Proc.devRef .tc main_v1) = W2 m ρ c (Proc.devRef .tc main_v1) by host_keep hostOps1).trans (w2_v1 m ρ c)

theorem w3_v3 : W3 m ρ c (Proc.devRef .tc main_v3) = dst m c :=
  (show W3 m ρ c (Proc.devRef .tc main_v3) = W2 m ρ c (Proc.devRef .tc main_v3) by host_keep hostOps1).trans (w2_v3 m ρ c)

theorem w3_arg2 : W3 m ρ c (Proc.devRef .tc main_arg2) = m ((c : Thread nD τ).loc main_arg2) :=
  (show W3 m ρ c (Proc.devRef .tc main_arg2) = W2 m ρ c (Proc.devRef .tc main_arg2) by host_keep hostOps1).trans (w2_arg2 m ρ c)

theorem w3_arg5 : W3 m ρ c (Proc.devRef .tc main_arg5) = m ((c : Thread nD τ).loc main_arg5) :=
  (show W3 m ρ c (Proc.devRef .tc main_arg5) = W2 m ρ c (Proc.devRef .tc main_arg5) by host_keep hostOps1).trans (w2_arg5 m ρ c)

theorem w3_arg6 : W3 m ρ c (Proc.devRef .tc main_arg6) = m ((c : Thread nD τ).loc main_arg6) :=
  (show W3 m ρ c (Proc.devRef .tc main_arg6) = W2 m ρ c (Proc.devRef .tc main_arg6) by host_keep hostOps1).trans (w2_arg6 m ρ c)

theorem w3_arg7 : W3 m ρ c (Proc.devRef .tc main_arg7) = m ((c : Thread nD τ).loc main_arg7) :=
  (show W3 m ρ c (Proc.devRef .tc main_arg7) = W2 m ρ c (Proc.devRef .tc main_arg7) by host_keep hostOps1).trans (w2_arg7 m ρ c)

theorem w3_arg8 : W3 m ρ c (Proc.devRef .tc main_arg8) = m ((c : Thread nD τ).loc main_arg8) :=
  (show W3 m ρ c (Proc.devRef .tc main_arg8) = W2 m ρ c (Proc.devRef .tc main_arg8) by host_keep hostOps1).trans (w2_arg8 m ρ c)

theorem w3_arg9 : W3 m ρ c (Proc.devRef .tc main_arg9) = m ((c : Thread nD τ).loc main_arg9) :=
  (show W3 m ρ c (Proc.devRef .tc main_arg9) = W2 m ρ c (Proc.devRef .tc main_arg9) by host_keep hostOps1).trans (w2_arg9 m ρ c)

theorem w3_arg10 : W3 m ρ c (Proc.devRef .tc main_arg10) = m ((c : Thread nD τ).loc main_arg10) :=
  (show W3 m ρ c (Proc.devRef .tc main_arg10) = W2 m ρ c (Proc.devRef .tc main_arg10) by host_keep hostOps1).trans (w2_arg10 m ρ c)

/-! ## After layer region 1 -/

theorem w4_v27_0 : W4 m ρ c (Proc.devRef .tc main_v27_0) = H1 m c :=
  (W4_arr m ρ c 6).trans ((Region1.final6 (V3 m ρ) c).trans (by
    show mlp (W3 m ρ c (Proc.devRef .tc main_v5_0)) (W3 m ρ c (Proc.devRef .tc main_v16)) (W3 m ρ c (Proc.devRef .tc main_v18)) (rowOf (W3 m ρ c (Proc.devRef .tc main_v25)))
      (W3 m ρ c (Proc.devRef .tc main_v22)) (rowOf (W3 m ρ c (Proc.devRef .tc main_v26))) = _
    rw [w3_v5_0, w3_v16, w3_v18, w3_v25, w3_v22, w3_v26]; rfl))

theorem w4_v27_1 : W4 m ρ c (Proc.devRef .tc main_v27_1) = H1 m c :=
  (W4_arr m ρ c 7).trans ((Region1.final7 (V3 m ρ) c).trans (by
    show mlp (W3 m ρ c (Proc.devRef .tc main_v5_0)) (W3 m ρ c (Proc.devRef .tc main_v16)) (W3 m ρ c (Proc.devRef .tc main_v18)) (rowOf (W3 m ρ c (Proc.devRef .tc main_v25)))
      (W3 m ρ c (Proc.devRef .tc main_v22)) (rowOf (W3 m ρ c (Proc.devRef .tc main_v26))) = _
    rw [w3_v5_0, w3_v16, w3_v18, w3_v25, w3_v22, w3_v26]; rfl))

theorem w4_v1 : W4 m ρ c (Proc.devRef .tc main_v1) = src m c :=
  (W4_of_ne m ρ c main_v1 (by decide)).trans (w3_v1 m ρ c)

theorem w4_v3 : W4 m ρ c (Proc.devRef .tc main_v3) = dst m c :=
  (W4_of_ne m ρ c main_v3 (by decide)).trans (w3_v3 m ρ c)

theorem w4_arg2 : W4 m ρ c (Proc.devRef .tc main_arg2) = m ((c : Thread nD τ).loc main_arg2) :=
  (W4_of_ne m ρ c main_arg2 (by decide)).trans (w3_arg2 m ρ c)

theorem w4_arg5 : W4 m ρ c (Proc.devRef .tc main_arg5) = m ((c : Thread nD τ).loc main_arg5) :=
  (W4_of_ne m ρ c main_arg5 (by decide)).trans (w3_arg5 m ρ c)

theorem w4_arg6 : W4 m ρ c (Proc.devRef .tc main_arg6) = m ((c : Thread nD τ).loc main_arg6) :=
  (W4_of_ne m ρ c main_arg6 (by decide)).trans (w3_arg6 m ρ c)

theorem w4_arg7 : W4 m ρ c (Proc.devRef .tc main_arg7) = m ((c : Thread nD τ).loc main_arg7) :=
  (W4_of_ne m ρ c main_arg7 (by decide)).trans (w3_arg7 m ρ c)

theorem w4_arg8 : W4 m ρ c (Proc.devRef .tc main_arg8) = m ((c : Thread nD τ).loc main_arg8) :=
  (W4_of_ne m ρ c main_arg8 (by decide)).trans (w3_arg8 m ρ c)

theorem w4_arg9 : W4 m ρ c (Proc.devRef .tc main_arg9) = m ((c : Thread nD τ).loc main_arg9) :=
  (W4_of_ne m ρ c main_arg9 (by decide)).trans (w3_arg9 m ρ c)

theorem w4_arg10 : W4 m ρ c (Proc.devRef .tc main_arg10) = m ((c : Thread nD τ).loc main_arg10) :=
  (W4_of_ne m ρ c main_arg10 (by decide)).trans (w3_arg10 m ρ c)

/-! ## After stretch 2 -/

theorem w5_v27_0 : W5 m ρ c (Proc.devRef .tc main_v27_0) = H1 m c :=
  (show W5 m ρ c (Proc.devRef .tc main_v27_0) = W4 m ρ c (Proc.devRef .tc main_v27_0) by host_keep hostOps2).trans (w4_v27_0 m ρ c)

theorem w5_v38 : W5 m ρ c (Proc.devRef .tc main_v38) = aggM m c (H1 m c) :=
  (show StableHlo.after hostOps2 (W4 m ρ c) (Proc.devRef .tc main_v38)
      = aggK (W4 m ρ c (Proc.devRef .tc main_v27_1)) (W4 m ρ c (Proc.devRef .tc main_v1)) (W4 m ρ c (Proc.devRef .tc main_v3)) by
    after_results_simp <;> rfl).trans
    (aggK_congr (w4_v27_1 m ρ c) (w4_v1 m ρ c) (w4_v3 m ρ c))

theorem w5_v40 : W5 m ρ c (Proc.devRef .tc main_v40) = wK1 (m ((c : Thread nD τ).loc main_arg5)) := by
  show StableHlo.after hostOps2 (W4 m ρ c) (Proc.devRef .tc main_v40) = _
  after_results
  rw [w4_arg5]; rfl

theorem w5_v47 : W5 m ρ c (Proc.devRef .tc main_v47) = bK1 (m ((c : Thread nD τ).loc main_arg6)) := by
  show StableHlo.after hostOps2 (W4 m ρ c) (Proc.devRef .tc main_v47) = _
  after_results
  rw [w4_arg6]; rfl

theorem w5_v44 : W5 m ρ c (Proc.devRef .tc main_v44) = wK1 (m ((c : Thread nD τ).loc main_arg7)) := by
  show StableHlo.after hostOps2 (W4 m ρ c) (Proc.devRef .tc main_v44) = _
  after_results
  rw [w4_arg7]; rfl

theorem w5_v48 : W5 m ρ c (Proc.devRef .tc main_v48) = bK1 (m ((c : Thread nD τ).loc main_arg8)) := by
  show StableHlo.after hostOps2 (W4 m ρ c) (Proc.devRef .tc main_v48) = _
  after_results
  rw [w4_arg8]; rfl

theorem w5_v1 : W5 m ρ c (Proc.devRef .tc main_v1) = src m c :=
  (show W5 m ρ c (Proc.devRef .tc main_v1) = W4 m ρ c (Proc.devRef .tc main_v1) by host_keep hostOps2).trans (w4_v1 m ρ c)

theorem w5_v3 : W5 m ρ c (Proc.devRef .tc main_v3) = dst m c :=
  (show W5 m ρ c (Proc.devRef .tc main_v3) = W4 m ρ c (Proc.devRef .tc main_v3) by host_keep hostOps2).trans (w4_v3 m ρ c)

theorem w5_arg2 : W5 m ρ c (Proc.devRef .tc main_arg2) = m ((c : Thread nD τ).loc main_arg2) :=
  (show W5 m ρ c (Proc.devRef .tc main_arg2) = W4 m ρ c (Proc.devRef .tc main_arg2) by host_keep hostOps2).trans (w4_arg2 m ρ c)

theorem w5_arg5 : W5 m ρ c (Proc.devRef .tc main_arg5) = m ((c : Thread nD τ).loc main_arg5) :=
  (show W5 m ρ c (Proc.devRef .tc main_arg5) = W4 m ρ c (Proc.devRef .tc main_arg5) by host_keep hostOps2).trans (w4_arg5 m ρ c)

theorem w5_arg6 : W5 m ρ c (Proc.devRef .tc main_arg6) = m ((c : Thread nD τ).loc main_arg6) :=
  (show W5 m ρ c (Proc.devRef .tc main_arg6) = W4 m ρ c (Proc.devRef .tc main_arg6) by host_keep hostOps2).trans (w4_arg6 m ρ c)

theorem w5_arg7 : W5 m ρ c (Proc.devRef .tc main_arg7) = m ((c : Thread nD τ).loc main_arg7) :=
  (show W5 m ρ c (Proc.devRef .tc main_arg7) = W4 m ρ c (Proc.devRef .tc main_arg7) by host_keep hostOps2).trans (w4_arg7 m ρ c)

theorem w5_arg8 : W5 m ρ c (Proc.devRef .tc main_arg8) = m ((c : Thread nD τ).loc main_arg8) :=
  (show W5 m ρ c (Proc.devRef .tc main_arg8) = W4 m ρ c (Proc.devRef .tc main_arg8) by host_keep hostOps2).trans (w4_arg8 m ρ c)

theorem w5_arg9 : W5 m ρ c (Proc.devRef .tc main_arg9) = m ((c : Thread nD τ).loc main_arg9) :=
  (show W5 m ρ c (Proc.devRef .tc main_arg9) = W4 m ρ c (Proc.devRef .tc main_arg9) by host_keep hostOps2).trans (w4_arg9 m ρ c)

theorem w5_arg10 : W5 m ρ c (Proc.devRef .tc main_arg10) = m ((c : Thread nD τ).loc main_arg10) :=
  (show W5 m ρ c (Proc.devRef .tc main_arg10) = W4 m ρ c (Proc.devRef .tc main_arg10) by host_keep hostOps2).trans (w4_arg10 m ρ c)

/-! ## After layer region 2 -/

theorem w6_v49_0 : W6 m ρ c (Proc.devRef .tc main_v49_0) = H2 m c :=
  (W6_arr m ρ c 6).trans ((Region2.final6 (V5 m ρ) c).trans (by
    show mlp (W5 m ρ c (Proc.devRef .tc main_v27_0)) (W5 m ρ c (Proc.devRef .tc main_v38)) (W5 m ρ c (Proc.devRef .tc main_v40)) (rowOf (W5 m ρ c (Proc.devRef .tc main_v47)))
      (W5 m ρ c (Proc.devRef .tc main_v44)) (rowOf (W5 m ρ c (Proc.devRef .tc main_v48))) = _
    rw [w5_v27_0, w5_v38, w5_v40, w5_v47, w5_v44, w5_v48]; rfl))

theorem w6_v49_1 : W6 m ρ c (Proc.devRef .tc main_v49_1) = H2 m c :=
  (W6_arr m ρ c 7).trans ((Region2.final7 (V5 m ρ) c).trans (by
    show mlp (W5 m ρ c (Proc.devRef .tc main_v27_0)) (W5 m ρ c (Proc.devRef .tc main_v38)) (W5 m ρ c (Proc.devRef .tc main_v40)) (rowOf (W5 m ρ c (Proc.devRef .tc main_v47)))
      (W5 m ρ c (Proc.devRef .tc main_v44)) (rowOf (W5 m ρ c (Proc.devRef .tc main_v48))) = _
    rw [w5_v27_0, w5_v38, w5_v40, w5_v47, w5_v44, w5_v48]; rfl))

theorem w6_v1 : W6 m ρ c (Proc.devRef .tc main_v1) = src m c :=
  (W6_of_ne m ρ c main_v1 (by decide)).trans (w5_v1 m ρ c)

theorem w6_v3 : W6 m ρ c (Proc.devRef .tc main_v3) = dst m c :=
  (W6_of_ne m ρ c main_v3 (by decide)).trans (w5_v3 m ρ c)

theorem w6_arg2 : W6 m ρ c (Proc.devRef .tc main_arg2) = m ((c : Thread nD τ).loc main_arg2) :=
  (W6_of_ne m ρ c main_arg2 (by decide)).trans (w5_arg2 m ρ c)

theorem w6_arg5 : W6 m ρ c (Proc.devRef .tc main_arg5) = m ((c : Thread nD τ).loc main_arg5) :=
  (W6_of_ne m ρ c main_arg5 (by decide)).trans (w5_arg5 m ρ c)

theorem w6_arg6 : W6 m ρ c (Proc.devRef .tc main_arg6) = m ((c : Thread nD τ).loc main_arg6) :=
  (W6_of_ne m ρ c main_arg6 (by decide)).trans (w5_arg6 m ρ c)

theorem w6_arg7 : W6 m ρ c (Proc.devRef .tc main_arg7) = m ((c : Thread nD τ).loc main_arg7) :=
  (W6_of_ne m ρ c main_arg7 (by decide)).trans (w5_arg7 m ρ c)

theorem w6_arg8 : W6 m ρ c (Proc.devRef .tc main_arg8) = m ((c : Thread nD τ).loc main_arg8) :=
  (W6_of_ne m ρ c main_arg8 (by decide)).trans (w5_arg8 m ρ c)

theorem w6_arg9 : W6 m ρ c (Proc.devRef .tc main_arg9) = m ((c : Thread nD τ).loc main_arg9) :=
  (W6_of_ne m ρ c main_arg9 (by decide)).trans (w5_arg9 m ρ c)

theorem w6_arg10 : W6 m ρ c (Proc.devRef .tc main_arg10) = m ((c : Thread nD τ).loc main_arg10) :=
  (W6_of_ne m ρ c main_arg10 (by decide)).trans (w5_arg10 m ρ c)

/-! ## After stretch 3 -/

theorem w7_v49_0 : W7 m ρ c (Proc.devRef .tc main_v49_0) = H2 m c :=
  (show W7 m ρ c (Proc.devRef .tc main_v49_0) = W6 m ρ c (Proc.devRef .tc main_v49_0) by host_keep hostOps3).trans (w6_v49_0 m ρ c)

theorem w7_v60 : W7 m ρ c (Proc.devRef .tc main_v60) = aggM m c (H2 m c) :=
  (show StableHlo.after hostOps3 (W6 m ρ c) (Proc.devRef .tc main_v60)
      = aggK (W6 m ρ c (Proc.devRef .tc main_v49_1)) (W6 m ρ c (Proc.devRef .tc main_v1)) (W6 m ρ c (Proc.devRef .tc main_v3)) by
    after_results_simp <;> rfl).trans
    (aggK_congr (w6_v49_1 m ρ c) (w6_v1 m ρ c) (w6_v3 m ρ c))

theorem w7_v62 : W7 m ρ c (Proc.devRef .tc main_v62) = wK2 (m ((c : Thread nD τ).loc main_arg5)) := by
  show StableHlo.after hostOps3 (W6 m ρ c) (Proc.devRef .tc main_v62) = _
  after_results
  rw [w6_arg5]; rfl

theorem w7_v69 : W7 m ρ c (Proc.devRef .tc main_v69) = bK2 (m ((c : Thread nD τ).loc main_arg6)) := by
  show StableHlo.after hostOps3 (W6 m ρ c) (Proc.devRef .tc main_v69) = _
  after_results
  rw [w6_arg6]; rfl

theorem w7_v66 : W7 m ρ c (Proc.devRef .tc main_v66) = wK2 (m ((c : Thread nD τ).loc main_arg7)) := by
  show StableHlo.after hostOps3 (W6 m ρ c) (Proc.devRef .tc main_v66) = _
  after_results
  rw [w6_arg7]; rfl

theorem w7_v70 : W7 m ρ c (Proc.devRef .tc main_v70) = bK2 (m ((c : Thread nD τ).loc main_arg8)) := by
  show StableHlo.after hostOps3 (W6 m ρ c) (Proc.devRef .tc main_v70) = _
  after_results
  rw [w6_arg8]; rfl

theorem w7_arg2 : W7 m ρ c (Proc.devRef .tc main_arg2) = m ((c : Thread nD τ).loc main_arg2) :=
  (show W7 m ρ c (Proc.devRef .tc main_arg2) = W6 m ρ c (Proc.devRef .tc main_arg2) by host_keep hostOps3).trans (w6_arg2 m ρ c)

theorem w7_arg9 : W7 m ρ c (Proc.devRef .tc main_arg9) = m ((c : Thread nD τ).loc main_arg9) :=
  (show W7 m ρ c (Proc.devRef .tc main_arg9) = W6 m ρ c (Proc.devRef .tc main_arg9) by host_keep hostOps3).trans (w6_arg9 m ρ c)

theorem w7_arg10 : W7 m ρ c (Proc.devRef .tc main_arg10) = m ((c : Thread nD τ).loc main_arg10) :=
  (show W7 m ρ c (Proc.devRef .tc main_arg10) = W6 m ρ c (Proc.devRef .tc main_arg10) by host_keep hostOps3).trans (w6_arg10 m ρ c)

/-! ## After layer region 3 -/

theorem w8_v71_0 : W8 m ρ c (Proc.devRef .tc main_v71_0) = H3 m c :=
  (W8_arr m ρ c 6).trans ((Region3.final6 (V7 m ρ) c).trans (by
    show mlp (W7 m ρ c (Proc.devRef .tc main_v49_0)) (W7 m ρ c (Proc.devRef .tc main_v60)) (W7 m ρ c (Proc.devRef .tc main_v62)) (rowOf (W7 m ρ c (Proc.devRef .tc main_v69)))
      (W7 m ρ c (Proc.devRef .tc main_v66)) (rowOf (W7 m ρ c (Proc.devRef .tc main_v70))) = _
    rw [w7_v49_0, w7_v60, w7_v62, w7_v69, w7_v66, w7_v70]; rfl))

theorem w8_arg2 : W8 m ρ c (Proc.devRef .tc main_arg2) = m ((c : Thread nD τ).loc main_arg2) :=
  (W8_of_ne m ρ c main_arg2 (by decide)).trans (w7_arg2 m ρ c)

theorem w8_arg9 : W8 m ρ c (Proc.devRef .tc main_arg9) = m ((c : Thread nD τ).loc main_arg9) :=
  (W8_of_ne m ρ c main_arg9 (by decide)).trans (w7_arg9 m ρ c)

theorem w8_arg10 : W8 m ρ c (Proc.devRef .tc main_arg10) = m ((c : Thread nD τ).loc main_arg10) :=
  (W8_of_ne m ρ c main_arg10 (by decide)).trans (w7_arg10 m ρ c)

/-! ## The result -/

/-- The result buffer at the last boundary is the read-out of the last layer's features. -/
theorem out_eq : W9 m ρ c (Proc.devRef .tc main_v78) = tailM m c (H3 m c) := by
  show StableHlo.after hostOps4 (W8 m ρ c) (Proc.devRef .tc main_v78) = _
  after_results
  rw [w8_v71_0, w8_arg2, w8_arg9, w8_arg10]; rfl

/-- The result buffer at the last boundary is the network of the launch contents of the arguments. -/
theorem out_net : W9 m ρ c (Proc.devRef .tc main_v78)
    = net (m ((c : Thread nD τ).loc main_arg0)) (m ((c : Thread nD τ).loc main_arg3)) (rowOf (rowK (m ((c : Thread nD τ).loc main_arg4))))
        (wK0 (m ((c : Thread nD τ).loc main_arg5))) (rowOf (bK0 (m ((c : Thread nD τ).loc main_arg6)))) (wK0 (m ((c : Thread nD τ).loc main_arg7))) (rowOf (bK0 (m ((c : Thread nD τ).loc main_arg8))))
        (wK1 (m ((c : Thread nD τ).loc main_arg5))) (rowOf (bK1 (m ((c : Thread nD τ).loc main_arg6)))) (wK1 (m ((c : Thread nD τ).loc main_arg7))) (rowOf (bK1 (m ((c : Thread nD τ).loc main_arg8))))
        (wK2 (m ((c : Thread nD τ).loc main_arg5))) (rowOf (bK2 (m ((c : Thread nD τ).loc main_arg6)))) (wK2 (m ((c : Thread nD τ).loc main_arg7))) (rowOf (bK2 (m ((c : Thread nD τ).loc main_arg8))))
        (aggM m c) (tailM m c) :=
  (out_eq m ρ c).trans rfl

end Cert.KernelIdeal.Fold

end
-- ==== Proof.RefValue.lean ====
/-
  The value of the reference program, a graph isomorphism network, as the function `Cert.Gin.net` of its arrays.

  The reference computes `h0 = x · w_in + b_in`; three times `h ↦ max ((max ((h + agg h) · w1 + b1) 0) · w2 + b2) 0 + h`,
  where `agg h` gathers rows of `h` at the edges' source nodes and adds them into a zero array at the destination nodes;
  and a read-out `tail`: the rows pooled per graph by a scatter-add into a zero array, a matrix product, a bias.

  Each dense step is a general dot product plus a bias vector broadcast over the rows (`dense`), each rectifier the
  maximum with a broadcast zero constant (`relu`); so one layer is `mlp` of its input, its neighbour sums, two weight
  slices and two bias slices, and the three layers are three instances of that one equation. The gather, the
  scatter-adds and the read-out's product stay as the reference spells them, inside `agg` and `tail`.
-/
import proofs.«131369_j32332513804324_2_alg».proof.Proof.Gen.ReferenceIdeal.Read
import proofs.«131369_j32332513804324_2_alg».proof.Proof.GinSpec
import Idealize.ShloMosaic.PureOps.Ideal.Laws
import Idealize.ShloMosaic.Lib.ValueIdx
import Idealize.ShloMosaic.Lib.ValueLayout

noncomputable section

namespace Cert.ReferenceIdeal.RefValue

open Cert.ReferenceIdeal Cert.ReferenceIdeal.Read Idealize.ShloMosaic Idealize.ShloMosaic.ValueIdx Cert.DenseLayer Cert.LayerForms Cert.LibRowBias Cert.Gin

/-- The neighbour sums as the reference spells them: rows of `h` gathered at the source nodes, added into a zero array at the destination nodes. -/
def agg (x1 : (⟨S2x1000000, .i32⟩ : BufTy).Contents (Elt Ideal)) (h : Mat 100000 64) : Mat 100000 64 :=
  Host.scatterAdd (F := Ideal) (φ := .f32) scatter_S100000x64_S1000000x1_S1000000x64_1_0_0_1 (val_main_v15 (F := Ideal)) (val_main_v16 (F := Ideal) x1)
    (Host.gather gather_S100000x64_S1000000x1_S1000000x64_1_0_n_n_0_1_164 h (val_main_v13 (F := Ideal) x1))

/-- The read-out as the reference spells it: rows pooled per graph by a scatter-add into a zero array, a matrix product, a bias. -/
def tail (x2 : (⟨S100000, .i32⟩ : BufTy).Contents (Elt Ideal)) (x9 : (⟨S64x32, .f32⟩ : BufTy).Contents (Elt Ideal)) (x10 : (⟨S32, .f32⟩ : BufTy).Contents (Elt Ideal)) (h : Mat 100000 64) : Mat 128 32 :=
  addf (F := Ideal) (Host.dotGeneral (F := Ideal) (φ₂ := .f32) dot_S128x64_S64x32_S128x32_1_0_0_1_n_n none (Host.scatterAdd (F := Ideal) (φ := .f32) scatter_S128x64_S100000x1_S100000x64_1_0_0_1 (val_main_v98 (F := Ideal)) (val_main_v99 (F := Ideal) x2) h) x9) (val_main_v103 (F := Ideal) x10)

/-- The input projection of the reference is the dense layer `x · w_in + b_in`. -/
private theorem h0_eq (x0 : (⟨S100000x32, .f32⟩ : BufTy).Contents (Elt Ideal)) (x3 : (⟨S32x64, .f32⟩ : BufTy).Contents (Elt Ideal)) (x4 : (⟨S64, .f32⟩ : BufTy).Contents (Elt Ideal)) :
    val_main_v3 (F := Ideal) x0 x3 x4 = dense x0 x3 (colBias x4) := by
  unfold val_main_v3 val_main_v0 val_main_v2 val_main_v1
  exact host_layer _ rfl none x0 x3 x4 _ _

/-- One layer as the reference spells it — two dense steps, each a general dot product plus a bias vector broadcast over
    the rows, each followed by the maximum with a broadcast zero, and the layer's input added back — is `mlp`. -/
private theorem layer_eq (h a : FVec Ideal S100000x64 .f32) (w1 w2 : FVec Ideal S64x64 .f32) (b1 b2 : FVec Ideal S64 .f32) :
    addf (maximumf (addf (Host.dotGeneral dot_S100000x64_S64x64_S100000x64_1_0_0_1_n_n none
            (maximumf (addf (Host.dotGeneral dot_S100000x64_S64x64_S100000x64_1_0_0_1_n_n none (addf h a) w1)
                (broadcastInDim S100000x64 ![0, 1] Gen.bcast_S1x64_S100000x64_0_1 (broadcastInDim S1x64 ![1] Gen.bcast_S64_S1x64_1 b1)))
              (val_main_call0_v0 (F := Ideal))) w2)
          (broadcastInDim S100000x64 ![0, 1] Gen.bcast_S1x64_S100000x64_0_1 (broadcastInDim S1x64 ![1] Gen.bcast_S64_S1x64_1 b2)))
        (val_main_call0_v0 (F := Ideal))) h
      = mlp h a w1 (colBias b1) w2 (colBias b2) := by
  unfold val_main_call0_v0 val_main_call0_cst
  rw [host_layer dot_S100000x64_S64x64_S100000x64_1_0_0_1_n_n rfl, host_relu,
    host_layer dot_S100000x64_S64x64_S100000x64_1_0_0_1_n_n rfl, host_relu]
  funext i
  rfl

/-- The first layer of the reference is `mlp` of the projected features and their neighbour sums. -/
private theorem h1_eq (x0 : (⟨S100000x32, .f32⟩ : BufTy).Contents (Elt Ideal)) (x1 : (⟨S2x1000000, .i32⟩ : BufTy).Contents (Elt Ideal)) (x3 : (⟨S32x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) :
    val_main_v37 (F := Ideal) x0 x1 x3 x4 x5 x6 x7 x8
      = mlp (val_main_v3 (F := Ideal) x0 x3 x4) (agg x1 (val_main_v3 (F := Ideal) x0 x3 x4))
          (val_main_v20 (F := Ideal) x5) (colBias (val_main_v23 (F := Ideal) x6)) (val_main_v29 (F := Ideal) x7) (colBias (val_main_v32 (F := Ideal) x8)) := by
  unfold val_main_v37 val_main_v36 val_main_v35 val_main_v34 val_main_v33 val_main_v30 val_main_v27 val_main_v26
    val_main_v25 val_main_v24 val_main_v21 val_main_v18 val_main_v17 val_main_v14
  exact layer_eq (val_main_v3 (F := Ideal) x0 x3 x4) (agg x1 (val_main_v3 (F := Ideal) x0 x3 x4))
    (val_main_v20 (F := Ideal) x5) (val_main_v29 (F := Ideal) x7) (val_main_v23 (F := Ideal) x6) (val_main_v32 (F := Ideal) x8)

/-- The second layer of the reference is `mlp` of the first layer's features and their neighbour sums. -/
private theorem h2_eq (x0 : (⟨S100000x32, .f32⟩ : BufTy).Contents (Elt Ideal)) (x1 : (⟨S2x1000000, .i32⟩ : BufTy).Contents (Elt Ideal)) (x3 : (⟨S32x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) :
    val_main_v67 (F := Ideal) x0 x1 x3 x4 x5 x6 x7 x8
      = mlp (val_main_v37 (F := Ideal) x0 x1 x3 x4 x5 x6 x7 x8) (agg x1 (val_main_v37 (F := Ideal) x0 x1 x3 x4 x5 x6 x7 x8))
          (val_main_v50 (F := Ideal) x5) (colBias (val_main_v53 (F := Ideal) x6)) (val_main_v59 (F := Ideal) x7) (colBias (val_main_v62 (F := Ideal) x8)) := by
  unfold val_main_v67 val_main_v66 val_main_v65 val_main_v64 val_main_v63 val_main_v60 val_main_v57 val_main_v56
    val_main_v55 val_main_v54 val_main_v51 val_main_v48 val_main_v47 val_main_v44
  exact layer_eq (val_main_v37 (F := Ideal) x0 x1 x3 x4 x5 x6 x7 x8) (agg x1 (val_main_v37 (F := Ideal) x0 x1 x3 x4 x5 x6 x7 x8))
    (val_main_v50 (F := Ideal) x5) (val_main_v59 (F := Ideal) x7) (val_main_v53 (F := Ideal) x6) (val_main_v62 (F := Ideal) x8)

/-- The third layer of the reference is `mlp` of the second layer's features and their neighbour sums. -/
private theorem h3_eq (x0 : (⟨S100000x32, .f32⟩ : BufTy).Contents (Elt Ideal)) (x1 : (⟨S2x1000000, .i32⟩ : BufTy).Contents (Elt Ideal)) (x3 : (⟨S32x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) :
    val_main_v97 (F := Ideal) x0 x1 x3 x4 x5 x6 x7 x8
      = mlp (val_main_v67 (F := Ideal) x0 x1 x3 x4 x5 x6 x7 x8) (agg x1 (val_main_v67 (F := Ideal) x0 x1 x3 x4 x5 x6 x7 x8))
          (val_main_v80 (F := Ideal) x5) (colBias (val_main_v83 (F := Ideal) x6)) (val_main_v89 (F := Ideal) x7) (colBias (val_main_v92 (F := Ideal) x8)) := by
  unfold val_main_v97 val_main_v96 val_main_v95 val_main_v94 val_main_v93 val_main_v90 val_main_v87 val_main_v86
    val_main_v85 val_main_v84 val_main_v81 val_main_v78 val_main_v77 val_main_v74
  exact layer_eq (val_main_v67 (F := Ideal) x0 x1 x3 x4 x5 x6 x7 x8) (agg x1 (val_main_v67 (F := Ideal) x0 x1 x3 x4 x5 x6 x7 x8))
    (val_main_v80 (F := Ideal) x5) (val_main_v89 (F := Ideal) x7) (val_main_v83 (F := Ideal) x6) (val_main_v92 (F := Ideal) x8)

/-- The reference's result is the network: the projection, three layers whose neighbour sums are `agg` of the layer's
    input, and the read-out `tail` of the last layer's features. -/
theorem result_eq (x0 : (⟨S100000x32, .f32⟩ : BufTy).Contents (Elt Ideal)) (x1 : (⟨S2x1000000, .i32⟩ : BufTy).Contents (Elt Ideal)) (x2 : (⟨S100000, .i32⟩ : BufTy).Contents (Elt Ideal)) (x3 : (⟨S32x64, .f32⟩ : BufTy).Contents (Elt Ideal)) (x4 : (⟨S64, .f32⟩ : BufTy).Contents (Elt Ideal)) (x5 : (⟨S3x64x64, .f32⟩ : BufTy).Contents (Elt Ideal)) (x6 : (⟨S3x64, .f32⟩ : BufTy).Contents (Elt Ideal)) (x7 : (⟨S3x64x64, .f32⟩ : BufTy).Contents (Elt Ideal)) (x8 : (⟨S3x64, .f32⟩ : BufTy).Contents (Elt Ideal)) (x9 : (⟨S64x32, .f32⟩ : BufTy).Contents (Elt Ideal)) (x10 : (⟨S32, .f32⟩ : BufTy).Contents (Elt Ideal)) :
    val_main_v104 (F := Ideal) x0 x1 x2 x3 x4 x5 x6 x7 x8 x9 x10
      = net x0 x3 (colBias x4)
          (val_main_v20 (F := Ideal) x5) (colBias (val_main_v23 (F := Ideal) x6)) (val_main_v29 (F := Ideal) x7) (colBias (val_main_v32 (F := Ideal) x8))
          (val_main_v50 (F := Ideal) x5) (colBias (val_main_v53 (F := Ideal) x6)) (val_main_v59 (F := Ideal) x7) (colBias (val_main_v62 (F := Ideal) x8))
          (val_main_v80 (F := Ideal) x5) (colBias (val_main_v83 (F := Ideal) x6)) (val_main_v89 (F := Ideal) x7) (colBias (val_main_v92 (F := Ideal) x8))
          (agg x1) (tail x2 x9 x10) := by
  unfold val_main_v104 val_main_v101 val_main_v100
  rw [h3_eq, h2_eq, h1_eq, h0_eq]
  rfl

end Cert.ReferenceIdeal.RefValue

end
-- ==== Proof.CrossPrograms.lean ====
/-
  The two programs' spellings of the network are one function of the argument arrays.

  Both programs cut the edge list into source and destination nodes, the stacked weights into per-layer matrices and the
  stacked biases into per-layer vectors with the same operations, gather and scatter-add with the same index
  arithmetic, and read out with the same pooling, product and bias. They differ in three spellings, none of which
  changes a value on the extended reals: the kernel's program reshapes each bias vector to a `[1, 64]` row, which read
  as a function of the column is the vector; it gathers from a copy of the features kept in a narrower float format and
  widens the gathered rows again, and a change of float format is the identity; and its side conditions are proved
  under other names.
-/
import proofs.«131369_j32332513804324_2_alg».proof.Proof.KernelFold
import proofs.«131369_j32332513804324_2_alg».proof.Proof.RefValue

set_option maxRecDepth 16384

noncomputable section

namespace Cert.CrossPrograms

open Idealize.ShloMosaic Idealize.ShloMosaic.TcCoe Idealize.SL.Sem
open Cert.DenseLayer Cert.LayerForms Cert.LibRowBias Cert.Gin
open Cert.KernelIdeal.Fold Cert.ReferenceIdeal.Read Cert.ReferenceIdeal.RefValue

/-- The network as the kernel's program spells its parameters, neighbour sums and read-out is the network as the
    reference spells them, of the same eleven argument arrays. -/
theorem net_cross (x0 : (⟨Cert.KernelIdeal.S100000x32, .f32⟩ : BufTy).Contents (Elt Ideal)) (x1 : (⟨Cert.KernelIdeal.S2x1000000, .i32⟩ : BufTy).Contents (Elt Ideal)) (x2 : (⟨Cert.KernelIdeal.S100000, .i32⟩ : BufTy).Contents (Elt Ideal))
    (x3 : (⟨Cert.KernelIdeal.S32x64, .f32⟩ : BufTy).Contents (Elt Ideal)) (x4 : (⟨Cert.KernelIdeal.S64, .f32⟩ : BufTy).Contents (Elt Ideal)) (x5 : (⟨Cert.KernelIdeal.S3x64x64, .f32⟩ : BufTy).Contents (Elt Ideal)) (x6 : (⟨Cert.KernelIdeal.S3x64, .f32⟩ : BufTy).Contents (Elt Ideal))
    (x7 : (⟨Cert.KernelIdeal.S3x64x64, .f32⟩ : BufTy).Contents (Elt Ideal)) (x8 : (⟨Cert.KernelIdeal.S3x64, .f32⟩ : BufTy).Contents (Elt Ideal)) (x9 : (⟨Cert.KernelIdeal.S64x32, .f32⟩ : BufTy).Contents (Elt Ideal)) (x10 : (⟨Cert.KernelIdeal.S32, .f32⟩ : BufTy).Contents (Elt Ideal)) :
    net x0 x3 (rowOf (rowK x4))
        (wK0 x5) (rowOf (bK0 x6)) (wK0 x7) (rowOf (bK0 x8))
        (wK1 x5) (rowOf (bK1 x6)) (wK1 x7) (rowOf (bK1 x8))
        (wK2 x5) (rowOf (bK2 x6)) (wK2 x7) (rowOf (bK2 x8))
        (fun h => aggK h (srcK x1) (dstK x1)) (fun h => tailK h x2 x9 x10)
      = net x0 x3 (colBias x4)
          (val_main_v20 (F := Ideal) x5) (colBias (val_main_v23 (F := Ideal) x6)) (val_main_v29 (F := Ideal) x7) (colBias (val_main_v32 (F := Ideal) x8))
          (val_main_v50 (F := Ideal) x5) (colBias (val_main_v53 (F := Ideal) x6)) (val_main_v59 (F := Ideal) x7) (colBias (val_main_v62 (F := Ideal) x8))
          (val_main_v80 (F := Ideal) x5) (colBias (val_main_v83 (F := Ideal) x6)) (val_main_v89 (F := Ideal) x7) (colBias (val_main_v92 (F := Ideal) x8))
          (agg x1) (tail x2 x9 x10) := by
  rw [show rowOf (rowK x4) = colBias x4 from rowOf_cast x4 Cert.KernelIdeal.Gen.shapeCasts_S64_S1x64,
    show rowOf (bK0 x6) = colBias (val_main_v23 (F := Ideal) x6) from rowOf_cast (val_main_v23 (F := Ideal) x6) Cert.KernelIdeal.Gen.shapeCasts_S64_S1x64,
    show rowOf (bK0 x8) = colBias (val_main_v32 (F := Ideal) x8) from rowOf_cast (val_main_v32 (F := Ideal) x8) Cert.KernelIdeal.Gen.shapeCasts_S64_S1x64,
    show rowOf (bK1 x6) = colBias (val_main_v53 (F := Ideal) x6) from rowOf_cast (val_main_v53 (F := Ideal) x6) Cert.KernelIdeal.Gen.shapeCasts_S64_S1x64,
    show rowOf (bK1 x8) = colBias (val_main_v62 (F := Ideal) x8) from rowOf_cast (val_main_v62 (F := Ideal) x8) Cert.KernelIdeal.Gen.shapeCasts_S64_S1x64,
    show rowOf (bK2 x6) = colBias (val_main_v83 (F := Ideal) x6) from rowOf_cast (val_main_v83 (F := Ideal) x6) Cert.KernelIdeal.Gen.shapeCasts_S64_S1x64,
    show rowOf (bK2 x8) = colBias (val_main_v92 (F := Ideal) x8) from rowOf_cast (val_main_v92 (F := Ideal) x8) Cert.KernelIdeal.Gen.shapeCasts_S64_S1x64]
  rfl

end Cert.CrossPrograms

end
-- ==== Proof.lean ====
/-
  A graph isomorphism network computed two ways: by a program of four kernel regions among stretches of host
  operations, and by a plain host program.

  Both programs compute `h0 = x · w_in + b_in`; three times `h ↦ max ((max ((h + agg h) · w1 + b1) 0) · w2 + b2) 0 + h`,
  where `agg h` gathers rows of `h` at the edges' source nodes and adds them into a zero array at the destination nodes;
  and a read-out that pools the rows per graph, multiplies by a weight matrix and adds a bias. The kernel regions
  compute the projection and the three layers block of rows by block of rows; an entry of a dense layer depends on one
  row of its operand only, so the blocks are the blocks of rows of the whole-array layer, and the 20 blocks tile the
  100000 rows. The kernel regions round their matrix products' operands to a narrower float format and keep a narrower
  copy of the features for the gather; on the extended reals a change of float format is the identity. The
  neighbour sums and the read-out are spelt with the same host operations in both programs.

  The three frame claims: the two kernel programs' by their generated frame proofs, the reference's by its generated run
  with the result dropped. The idealization rewrote no operation, so `preserves` is `True`. The value claim: the kernel's run
  ends with its result buffer at the last boundary's contents, which is the network of the launch contents of the
  arguments; the reference's run ends with its result at the network of its arguments; the arguments agree.
-/
import proofs.«131369_j32332513804324_2_alg».proof.Defs
import proofs.«131369_j32332513804324_2_alg».proof.Proof.Gen.Kernel
import proofs.«131369_j32332513804324_2_alg».proof.Proof.Gen.Kernel.Skeleton
import proofs.«131369_j32332513804324_2_alg».proof.Proof.Gen.Kernel.Launch
import proofs.«131369_j32332513804324_2_alg».proof.Proof.Gen.Kernel.Points
import proofs.«131369_j32332513804324_2_alg».proof.Proof.Gen.Kernel.Frame
import proofs.«131369_j32332513804324_2_alg».proof.Proof.Gen.KernelIdeal
import proofs.«131369_j32332513804324_2_alg».proof.Proof.Gen.KernelIdeal.Skeleton
import proofs.«131369_j32332513804324_2_alg».proof.Proof.Gen.KernelIdeal.Launch
import proofs.«131369_j32332513804324_2_alg».proof.Proof.Gen.KernelIdeal.Points
import proofs.«131369_j32332513804324_2_alg».proof.Proof.Gen.KernelIdeal.Frame
import proofs.«131369_j32332513804324_2_alg».proof.Proof.Gen.ReferenceIdeal
import proofs.«131369_j32332513804324_2_alg».proof.Proof.Gen.ReferenceIdeal.Run
import proofs.«131369_j32332513804324_2_alg».proof.Proof.Gen.ReferenceIdeal.Read
import proofs.«131369_j32332513804324_2_alg».proof.Proof.Gen.Pre_finite_inputs
import proofs.«131369_j32332513804324_2_alg».proof.Proof.KernelRun
import proofs.«131369_j32332513804324_2_alg».proof.Proof.KernelFold
import proofs.«131369_j32332513804324_2_alg».proof.Proof.RefValue
import proofs.«131369_j32332513804324_2_alg».proof.Proof.CrossPrograms
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Gen.frame m ρ

/-- The idealized kernel program runs and leaves its arguments unchanged. -/
theorem frame_ki : Cert.frame_KernelIdeal := fun m ρ _ => Cert.KernelIdeal.Gen.frame m ρ

/-- The idealized reference runs and leaves its arguments unchanged: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with their result at the network of the
    arguments. -/
theorem algebraic : Cert.algebraic_KernelIdeal_ReferenceIdeal := by
  intro m ρ m' ρ' _ hagree
  refine ⟨fun c => Cert.KernelIdeal.Gen.W9 m ρ c (Proc.devRef .tc Cert.KernelIdeal.main_v78),
    Cert.KernelIdeal.ValueRun.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  have e1 := Cert.ReferenceIdeal.Read.val_main_v104_eq (F := Ideal) m' c
  rw [a0, a1, a2, a3, a4, a5, a6, a7, a8, a9, a10] at e1
  exact e1.trans ((Cert.ReferenceIdeal.RefValue.result_eq _ _ _ _ _ _ _ _ _ _ _).trans
    ((Cert.CrossPrograms.net_cross (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
        (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).symm.trans
      (Cert.KernelIdeal.Fold.out_net m ρ c).symm))

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
